-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S32x512 : Shape := ⟨2, ![32, 512]⟩
abbrev S8x3x128x512 : Shape := ⟨4, ![8, 3, 128, 512]⟩
abbrev S8x512 : Shape := ⟨2, ![8, 512]⟩
abbrev S8x1x128x512 : Shape := ⟨4, ![8, 1, 128, 512]⟩
abbrev S8x128x512 : Shape := ⟨3, ![8, 128, 512]⟩
abbrev S_ : Shape := ⟨0, ![]⟩

abbrev nBuf : Space → Nat
  | .hbm => 55
  | .vmem => 12
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x512, .f32⟩
  | .hbm, ⟨3, _⟩ => ⟨S32x512, .f32⟩
  | .hbm, ⟨4, _⟩ => ⟨S32x512, .f32⟩
  | .hbm, ⟨5, _⟩ => ⟨S32x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32x512, .f32⟩
  | .hbm, ⟨10, _⟩ => ⟨S32x512, .f32⟩
  | .hbm, ⟨11, _⟩ => ⟨S_, .f32⟩
  | .hbm, ⟨12, _⟩ => ⟨S32x512, .f32⟩
  | .hbm, ⟨13, _⟩ => ⟨S32x512, .f32⟩
  | .hbm, ⟨14, _⟩ => ⟨S32x512, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32x512, .f32⟩
  | .hbm, ⟨19, _⟩ => ⟨S32x512, .f32⟩
  | .hbm, ⟨20, _⟩ => ⟨S_, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32x512, .f32⟩
  | .hbm, ⟨28, _⟩ => ⟨S32x512, .f32⟩
  | .hbm, ⟨29, _⟩ => ⟨S_, .f32⟩
  | .hbm, ⟨30, _⟩ => ⟨S32x512, .f32⟩
  | .hbm, ⟨31, _⟩ => ⟨S32x512, .f32⟩
  | .hbm, ⟨32, _⟩ => ⟨S32x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S32x512, .f32⟩
  | .hbm, ⟨37, _⟩ => ⟨S32x512, .f32⟩
  | .hbm, ⟨38, _⟩ => ⟨S_, .f32⟩
  | .hbm, ⟨39, _⟩ => ⟨S32x512, .f32⟩
  | .hbm, ⟨40, _⟩ => ⟨S32x512, .f32⟩
  | .hbm, ⟨41, _⟩ => ⟨S32x512, .f32⟩
  | .hbm, ⟨42, _⟩ => ⟨S32x512, .f32⟩
  | .hbm, ⟨43, _⟩ => ⟨S32x512, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S32x512, .f32⟩
  | .hbm, ⟨49, _⟩ => ⟨S32x512, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S8x3x128x512, .f32⟩
  | .local _ .vmem, ⟨1, _⟩ => ⟨S8x3x128x512, .f32⟩
  | .local _ .vmem, ⟨2, _⟩ => ⟨S8x3x128x512, .f32⟩
  | .local _ .vmem, ⟨3, _⟩ => ⟨S8x3x128x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v3 : Ref sig .tc := ⟨.hbm, 22, rfl⟩
abbrev main_v4 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v5 : Ref sig .tc := ⟨.hbm, 31, rfl⟩
abbrev main_v6 : Ref sig .tc := ⟨.hbm, 32, rfl⟩
abbrev main_cst_5 : Ref sig .tc := ⟨.hbm, 33, rfl⟩
abbrev main_cst_6 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_7 : Ref sig .tc := ⟨.hbm, 44, rfl⟩
abbrev main_v11 : Ref sig .tc := ⟨.hbm, 45, rfl⟩
abbrev main_cst_8 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_9 : Ref sig .tc := ⟨.hbm, 50, rfl⟩
abbrev main_v15 : Ref sig .tc := ⟨.hbm, 51, rfl⟩
abbrev main_cst_10 : Ref sig .tc := ⟨.hbm, 52, rfl⟩
abbrev main_v16 : Ref sig .tc := ⟨.hbm, 53, rfl⟩
abbrev main_v17 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S8x512_S8x512_0_0 : ∀ a, (![0, 0] : Fin 2 → Nat) a + S8x512.size a ≤ S8x512.size a
  h_S8x512 : 0 < S8x512.numel
  inb_S8x3x128x512_S8x1x128x512_0_0_0_0 : ∀ a, (![0, 0, 0, 0] : Fin 4 → Nat) a + S8x1x128x512.size a ≤ S8x3x128x512.size a
  h_S8x1x128x512 : 0 < S8x1x128x512.numel
  shapeCasts_S8x1x128x512_S8x128x512 : S8x1x128x512.ShapeCasts S8x128x512
  inb_S8x3x128x512_S8x1x128x512_0_1_0_0 : ∀ a, (![0, 1, 0, 0] : Fin 4 → Nat) a + S8x1x128x512.size a ≤ S8x3x128x512.size a
  inb_S8x3x128x512_S8x1x128x512_0_2_0_0 : ∀ a, (![0, 2, 0, 0] : Fin 4 → Nat) a + S8x1x128x512.size a ≤ S8x3x128x512.size a
  shapeCasts_S8x512_S8x512 : S8x512.ShapeCasts S8x512
  reduces_S8x128x512_S8x512 : S8x128x512.Reduces [1] S8x512
  bcast_S_S32x512 : S_.BroadcastsInDim S32x512 (![] : Fin 0 → Fin S32x512.rank)
  reducesTo_S32x512_S_d0_1 : S32x512.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x128x512.size a ≤ S32x3x512x512.size a
  hwx0_0 : ∀ i : grid0.Coords, EltTy.bits .f32 = 32 ∨ (Rect.block (s := S32x3x512x512) S8x3x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x128x512.size a ≤ S32x3x512x512.size a
  hwx0_1 : ∀ i : grid0.Coords, EltTy.bits .f32 = 32 ∨ (Rect.block (s := S32x3x512x512) S8x3x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S32x512.size a
  hwx0_2 : ∀ i : grid0.Coords, EltTy.bits .f32 = 32 ∨ (Rect.block (s := S32x512) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S32x512.size a
  hwx0_3 : ∀ i : grid0.Coords, EltTy.bits .f32 = 32 ∨ (Rect.block (s := S32x512) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S32x512.size a
  hwx0_4 : ∀ i : grid0.Coords, EltTy.bits .f32 = 32 ∨ (Rect.block (s := S32x512) S8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S32x512.size a
  hwx0_5 : ∀ i : grid0.Coords, EltTy.bits .f32 = 32 ∨ (Rect.block (s := S32x512) S8x512.size (cc0_transform_5 i) (hinb0_5 i)).WholeWords (EltTy.packing .f32)

variable [Facts₀]

abbrev win0_0 : Pipeline.Window sig grid0 :=
  Pipeline.Window.ofSpec (Memref.whole main_arg0) S8x3x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S_ : Shape := ⟨0, ![]⟩
abbrev S32x512x512 : Shape := ⟨3, ![32, 512, 512]⟩
abbrev S32x512 : Shape := ⟨2, ![32, 512]⟩

abbrev nBuf : Space → Nat
  | .hbm => 45
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S32x3x512x512, .f32⟩
  | .hbm, ⟨6, _⟩ => ⟨S32x3x512x512, .f32⟩
  | .hbm, ⟨7, _⟩ => ⟨S_, .f32⟩
  | .hbm, ⟨8, _⟩ => ⟨S32x3x512x512, .f32⟩
  | .hbm, ⟨9, _⟩ => ⟨S32x3x512x512, .f32⟩
  | .hbm, ⟨10, _⟩ => ⟨S32x3x512x512, .f32⟩
  | .hbm, ⟨11, _⟩ => ⟨S_, .f32⟩
  | .hbm, ⟨12, _⟩ => ⟨S32x512x512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32x3x512x512, .f32⟩
  | .hbm, ⟨17, _⟩ => ⟨S32x3x512x512, .f32⟩
  | .hbm, ⟨18, _⟩ => ⟨S_, .f32⟩
  | .hbm, ⟨19, _⟩ => ⟨S32x3x512x512, .f32⟩
  | .hbm, ⟨20, _⟩ => ⟨S32x3x512x512, .f32⟩
  | .hbm, ⟨21, _⟩ => ⟨S32x3x512x512, .f32⟩
  | .hbm, ⟨22, _⟩ => ⟨S_, .f32⟩
  | .hbm, ⟨23, _⟩ => ⟨S32x512x512, .f32⟩
  | .hbm, ⟨24, _⟩ => ⟨S_, .f32⟩
  | .hbm, ⟨25, _⟩ => ⟨S32x512, .f32⟩
  | .hbm, ⟨26, _⟩ => ⟨S_, .f32⟩
  | .hbm, ⟨27, _⟩ => ⟨S32x512, .f32⟩
  | .hbm, ⟨28, _⟩ => ⟨S32x512, .f32⟩
  | .hbm, ⟨29, _⟩ => ⟨S32x512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S32x512, .f32⟩
  | .hbm, ⟨36, _⟩ => ⟨S_, .f32⟩
  | .hbm, ⟨37, _⟩ => ⟨S32x512, .f32⟩
  | .hbm, ⟨38, _⟩ => ⟨S32x512, .f32⟩
  | .hbm, ⟨39, _⟩ => ⟨S32x512, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v3 : Ref sig .tc := ⟨.hbm, 20, rfl⟩
abbrev main_v4 : Ref sig .tc := ⟨.hbm, 21, rfl⟩
abbrev main_cst_4 : Ref sig .tc := ⟨.hbm, 22, rfl⟩
abbrev main_v5 : Ref sig .tc := ⟨.hbm, 23, rfl⟩
abbrev main_cst_5 : Ref sig .tc := ⟨.hbm, 24, rfl⟩
abbrev main_v6 : Ref sig .tc := ⟨.hbm, 25, rfl⟩
abbrev main_cst_6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_7 : Ref sig .tc := ⟨.hbm, 30, rfl⟩
abbrev main_v10 : Ref sig .tc := ⟨.hbm, 31, rfl⟩
abbrev main_cst_8 : Ref sig .tc := ⟨.hbm, 32, rfl⟩
abbrev main_v11 : Ref sig .tc := ⟨.hbm, 33, rfl⟩
abbrev main_cst_9 : Ref sig .tc := ⟨.hbm, 34, rfl⟩
abbrev main_v12 : Ref sig .tc := ⟨.hbm, 35, rfl⟩
abbrev main_cst_10 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_11 : Ref sig .tc := ⟨.hbm, 40, rfl⟩
abbrev main_v16 : Ref sig .tc := ⟨.hbm, 41, rfl⟩
abbrev main_cst_12 : Ref sig .tc := ⟨.hbm, 42, rfl⟩
abbrev main_v17 : Ref sig .tc := ⟨.hbm, 43, rfl⟩
abbrev main_v18 : Ref sig .tc := ⟨.hbm, 44, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  reducesTo_S32x3x512x512_S32x512x512_d1 : S32x3x512x512.ReducesTo [1] S32x512x512
  h_S_ : 0 < S_.numel
  reducesTo_S32x512x512_S32x512_d1 : S32x512x512.ReducesTo [1] S32x512
  reducesTo_S32x512_S_d0_1 : S32x512.ReducesTo [0, 1] S_

variable [Facts₀]

class Facts : Prop extends Facts₀ where

variable [Facts]
-- ==== Proof.KernelPieces.lean ====
import proofs.«108165_j71442486001672_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

/-!
# What one grid point leaves in the four running blocks

At a grid point the body reads the three channel slices of its prediction block `x0` and of its target block `x1`
(each slice a `[8, 1, 128, 512]` sub-rectangle of the `[8, 3, 128, 512]` block), and overwrites each of its four
`[8, 512]` running blocks by one whole-block store: the running minimum of the prediction's value channel, its
running maximum, and the same two for the target. At the first point of a row sweep (case A) the four blocks are
first reset to `+∞`, `-∞`, `+∞`, `-∞` and the update reads the reset back; at the later points (case B) it reads what
the point before left (`xo2 … xo5`). In both cases what a block ends holding is the update's value as ONE term of the
point's loads, stated here for any float instance.
-/

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Channel 0, 1, 2 of a block: the sub-rectangle of extent one at that channel. -/
abbrev ch0 (x : Vec F S8x3x128x512 .f32) : Vec F S8x1x128x512 .f32 :=
  View.ld x (Rect.unit (s := S8x3x128x512) ![0, 0, 0, 0] S8x1x128x512.size inb_S8x3x128x512_S8x1x128x512_0_0_0_0)
abbrev ch1 (x : Vec F S8x3x128x512 .f32) : Vec F S8x1x128x512 .f32 :=
  View.ld x (Rect.unit (s := S8x3x128x512) ![0, 1, 0, 0] S8x1x128x512.size inb_S8x3x128x512_S8x1x128x512_0_1_0_0)
abbrev ch2 (x : Vec F S8x3x128x512 .f32) : Vec F S8x1x128x512 .f32 :=
  View.ld x (Rect.unit (s := S8x3x128x512) ![0, 2, 0, 0] S8x1x128x512.size inb_S8x3x128x512_S8x1x128x512_0_2_0_0)

/-! ## A later point of the sweep: the update over what the point before left -/

theorem caseB_2 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (hc0 : ¬cond0_0 i)
    (x0 x1 : Vec F S8x3x128x512 .f32) (xo2 xo3 xo4 xo5 : Vec F S8x512 .f32) :
    out0_B_2 c i arg2 harg2 arg3 harg3 arg4 harg4 arg5 harg5 arg6 harg6 arg7 harg7 hc0 x0 x1 xo2 xo3 xo4 xo5 = k0_pay10 (ch0 x0) (ch1 x0) (ch2 x0) xo2 := by
  unfold out0_B_2
  rw [View.read_writes_eq_canon _ _ _ (cover0_B_2 c i arg2 harg2 arg3 harg3 arg4 harg4 arg5 harg5 arg6 harg6 arg7 harg7 hc0 x0 x1 xo2 xo3 xo4 xo5)]
  unfold kernelRun0_B
  dsimp only
  try sl_unfold_words
  rw [View.canon_unit_zero hz]
  simp only [View.readAt_eq_ld, harg2.read_unread, harg4.read_unread, View.ld_unit_zero (S := S8x512) hz]

theorem caseB_3 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (hc0 : ¬cond0_0 i)
    (x0 x1 : Vec F S8x3x128x512 .f32) (xo2 xo3 xo4 xo5 : Vec F S8x512 .f32) :
    out0_B_3 c i arg2 harg2 arg3 harg3 arg4 harg4 arg5 harg5 arg6 harg6 arg7 harg7 hc0 x0 x1 xo2 xo3 xo4 xo5 = k0_pay1 (k0_pay8 (ch0 x0) (ch1 x0) (ch2 x0)) xo3 := by
  unfold out0_B_3
  rw [View.read_writes_eq_canon _ _ _ (cover0_B_3 c i arg2 harg2 arg3 harg3 arg4 harg4 arg5 harg5 arg6 harg6 arg7 harg7 hc0 x0 x1 xo2 xo3 xo4 xo5)]
  unfold kernelRun0_B
  dsimp only
  try sl_unfold_words
  rw [View.canon_unit_zero hz]
  simp only [View.readAt_eq_ld, harg2.read_unread, harg5.read_unread, View.ld_unit_zero (S := S8x512) hz]

theorem caseB_4 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (hc0 : ¬cond0_0 i)
    (x0 x1 : Vec F S8x3x128x512 .f32) (xo2 xo3 xo4 xo5 : Vec F S8x512 .f32) :
    out0_B_4 c i arg2 harg2 arg3 harg3 arg4 harg4 arg5 harg5 arg6 harg6 arg7 harg7 hc0 x0 x1 xo2 xo3 xo4 xo5 = k0_pay2 (k0_pay9 (ch0 x1) (ch1 x1) (ch2 x1)) xo4 := by
  unfold out0_B_4
  rw [View.read_writes_eq_canon _ _ _ (cover0_B_4 c i arg2 harg2 arg3 harg3 arg4 harg4 arg5 harg5 arg6 harg6 arg7 harg7 hc0 x0 x1 xo2 xo3 xo4 xo5)]
  unfold kernelRun0_B
  dsimp only
  try sl_unfold_words
  rw [View.canon_unit_zero hz]
  simp only [View.readAt_eq_ld, harg3.read_unread, harg6.read_unread, View.ld_unit_zero (S := S8x512) hz]

theorem caseB_5 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (hc0 : ¬cond0_0 i)
    (x0 x1 : Vec F S8x3x128x512 .f32) (xo2 xo3 xo4 xo5 : Vec F S8x512 .f32) :
    out0_B_5 c i arg2 harg2 arg3 harg3 arg4 harg4 arg5 harg5 arg6 harg6 arg7 harg7 hc0 x0 x1 xo2 xo3 xo4 xo5 = k0_pay3 (k0_pay9 (ch0 x1) (ch1 x1) (ch2 x1)) xo5 := by
  unfold out0_B_5
  rw [View.read_writes_eq_canon _ _ _ (cover0_B_5 c i arg2 harg2 arg3 harg3 arg4 harg4 arg5 harg5 arg6 harg6 arg7 harg7 hc0 x0 x1 xo2 xo3 xo4 xo5)]
  unfold kernelRun0_B
  dsimp only
  try sl_unfold_words
  rw [View.canon_unit_zero hz]
  simp only [View.readAt_eq_ld, harg3.read_unread, harg7.read_unread, View.ld_unit_zero (S := S8x512) hz]

/-! ## The first point of the sweep: the update over the reset -/

theorem caseA_2 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (hc0 : cond0_0 i)
    (x0 x1 : Vec F S8x3x128x512 .f32) :
    out0_A_2 c i arg2 harg2 arg3 harg3 arg4 harg4 arg5 harg5 arg6 harg6 arg7 harg7 hc0 x0 x1 = k0_pay10 (ch0 x0) (ch1 x0) (ch2 x0) k0_pay4 := by
  unfold out0_A_2
  rw [View.read_writes_eq_canon _ _ _ (cover0_A_2 c i arg2 harg2 arg3 harg3 arg4 harg4 arg5 harg5 arg6 harg6 arg7 harg7 hc0 x0 x1)]
  unfold kernelRun0_A
  dsimp only
  sl_unfold_words
  rw [View.canon_cons_unit_zero (S := S8x512) hz, View.readCov_unit_zero (S := S8x512) _ hz]
  simp only [View.readAt_eq_ld, harg2.read_unread]

theorem caseA_3 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (hc0 : cond0_0 i)
    (x0 x1 : Vec F S8x3x128x512 .f32) :
    out0_A_3 c i arg2 harg2 arg3 harg3 arg4 harg4 arg5 harg5 arg6 harg6 arg7 harg7 hc0 x0 x1 = k0_pay1 (k0_pay8 (ch0 x0) (ch1 x0) (ch2 x0)) k0_pay5 := by
  unfold out0_A_3
  rw [View.read_writes_eq_canon _ _ _ (cover0_A_3 c i arg2 harg2 arg3 harg3 arg4 harg4 arg5 harg5 arg6 harg6 arg7 harg7 hc0 x0 x1)]
  unfold kernelRun0_A
  dsimp only
  sl_unfold_words
  rw [View.canon_cons_unit_zero (S := S8x512) hz, View.readCov_unit_zero (S := S8x512) _ hz]
  simp only [View.readAt_eq_ld, harg2.read_unread]

theorem caseA_4 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (hc0 : cond0_0 i)
    (x0 x1 : Vec F S8x3x128x512 .f32) :
    out0_A_4 c i arg2 harg2 arg3 harg3 arg4 harg4 arg5 harg5 arg6 harg6 arg7 harg7 hc0 x0 x1 = k0_pay2 (k0_pay9 (ch0 x1) (ch1 x1) (ch2 x1)) k0_pay6 := by
  unfold out0_A_4
  rw [View.read_writes_eq_canon _ _ _ (cover0_A_4 c i arg2 harg2 arg3 harg3 arg4 harg4 arg5 harg5 arg6 harg6 arg7 harg7 hc0 x0 x1)]
  unfold kernelRun0_A
  dsimp only
  sl_unfold_words
  rw [View.canon_cons_unit_zero (S := S8x512) hz, View.readCov_unit_zero (S := S8x512) _ hz]
  simp only [View.readAt_eq_ld, harg3.read_unread]

theorem caseA_5 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (hc0 : cond0_0 i)
    (x0 x1 : Vec F S8x3x128x512 .f32) :
    out0_A_5 c i arg2 harg2 arg3 harg3 arg4 harg4 arg5 harg5 arg6 harg6 arg7 harg7 hc0 x0 x1 = k0_pay3 (k0_pay9 (ch0 x1) (ch1 x1) (ch2 x1)) k0_pay7 := by
  unfold out0_A_5
  rw [View.read_writes_eq_canon _ _ _ (cover0_A_5 c i arg2 harg2 arg3 harg3 arg4 harg4 arg5 harg5 arg6 harg6 arg7 harg7 hc0 x0 x1)]
  unfold kernelRun0_A
  dsimp only
  sl_unfold_words
  rw [View.canon_cons_unit_zero (S := S8x512) hz, View.readCov_unit_zero (S := S8x512) _ hz]
  simp only [View.readAt_eq_ld, harg3.read_unread]

end Cert.KernelIdeal.Pieces

end
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«108165_j71442486001672_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.Extrema.lean ====
import Idealize.ShloMosaic.PureOps.Ideal
import Idealize.ShloMosaic.PureOps.Ideal.Laws
import Idealize.ShloMosaic.Lib.ValueIdx
import proofs.«108165_j71442486001672_2_alg».proof.Proof.LibOrderFold

/-!
# The value channel's extremes over the rows, and quantization

For an image batch `X : [32, 3, 512, 512]` of extended reals the VALUE of pixel `(b, h, w)` is the largest of its
three channels; `darkest X (b, w)` is the smallest value down column `w` of image `b` (over the 512 rows `h`) and
`brightest X (b, w)` the largest. Quantization is `x ↦ ⌊min hi (max lo x)⌋`: a clamp followed by rounding down, a
MONOTONE map of the extended reals (each of its three steps is monotone; the infinities are sent to the clamp's
bounds before the rounding sees them, and the rounding fixes them anyway).

A monotone map of a linear order commutes with a maximum of finitely many values and with a minimum of finitely many
values, so quantizing the extremes of the raw values is the same as taking the extremes of the quantized values:
`quant_darkest` and `quant_brightest`. No finiteness of the data is used.

The loss both programs end with is one function `lossOf` of four `[32, 512]` planes: the mean square of the
difference of the two darkest planes plus the mean square of the difference of the two brightest planes.
-/

noncomputable section

namespace Cert.Extrema

open Idealize.ShloMosaic Idealize.ShloMosaic.ValueIdx

/-- The image batch's shape, a plane's shape, the scalar shape. -/
abbrev Img : Shape := ⟨4, ![32, 3, 512, 512]⟩
abbrev Plane : Shape := ⟨2, ![32, 512]⟩
abbrev Scal : Shape := ⟨0, ![]⟩

/-! ## Quantization is monotone -/

/-- Rounding down, extended to the infinities by fixing them, is monotone. -/
theorem floor_mono : Monotone (Ideal.liftRound Int.floor) := by
  intro a b hab
  induction a using EReal.rec with
  | bot => exact bot_le
  | top =>
    obtain rfl : b = ⊤ := top_le_iff.mp hab
    exact le_rfl
  | coe r =>
    induction b using EReal.rec with
    | bot => exact absurd hab (by simp)
    | top => exact le_top
    | coe s =>
      rw [Ideal.liftRound_coe, Ideal.liftRound_coe, EReal.coe_le_coe_iff]
      exact_mod_cast Int.floor_mono (EReal.coe_le_coe_iff.mp hab)

/-- Clamp to `[lo, hi]` (the high bound applied last), then round down. -/
def quant (lo hi x : EReal) : EReal := Ideal.liftRound Int.floor (min hi (max lo x))

theorem quant_mono (lo hi : EReal) : Monotone (quant lo hi) :=
  fun _ _ h => floor_mono (min_le_min_left hi (max_le_max_left lo h))

/-! ## The value channel and its extremes down a column -/

/-- The largest of the three channels of pixel `(b, h, w)`, channel 0 against channel 1 first. -/
def chanMax (X : FVec Ideal Img .f32) (b : Fin 32) (h w : Fin 512) : EReal :=
  max (max (X (ix4 b (0 : Fin 3) h w)) (X (ix4 b (1 : Fin 3) h w))) (X (ix4 b (2 : Fin 3) h w))

/-- The smallest value down column `w` of image `b`. -/
def darkest (X : FVec Ideal Img .f32) : FVec Ideal Plane .f32 := fun j => ⨅ h : Fin 512, chanMax X (j 0) h (j 1)

/-- The largest value down column `w` of image `b`. -/
def brightest (X : FVec Ideal Img .f32) : FVec Ideal Plane .f32 := fun j => ⨆ h : Fin 512, chanMax X (j 0) h (j 1)

/-- A supremum over three indices is the two nested maxima. -/
theorem iSup_fin_three (f : Fin 3 → EReal) : ⨆ c, f c = max (max (f 0) (f 1)) (f 2) := by
  refine eq_of_forall_ge_iff fun z => ?_
  rw [iSup_le_iff, max_le_iff, max_le_iff]
  constructor
  · intro H; exact ⟨⟨H 0, H 1⟩, H 2⟩
  · rintro ⟨⟨h0, h1⟩, h2⟩ c
    match c with
    | ⟨0, _⟩ => exact h0
    | ⟨1, _⟩ => exact h1
    | ⟨2, _⟩ => exact h2

/-- Quantizing a pixel's value is the largest of its quantized channels. -/
theorem quant_chanMax (lo hi : EReal) (X : FVec Ideal Img .f32) (b : Fin 32) (h w : Fin 512) :
    quant lo hi (chanMax X b h w) = ⨆ c : Fin 3, quant lo hi (X (ix4 b c h w)) := by
  unfold chanMax
  rw [(quant_mono lo hi).map_max, (quant_mono lo hi).map_max, iSup_fin_three]

/-- Quantizing the darkest value of a column is the smallest, over its rows, of the largest quantized channel. -/
theorem quant_darkest (lo hi : EReal) (X : FVec Ideal Img .f32) (j : Plane.Idx) :
    quant lo hi (darkest X j) = ⨅ h : Fin 512, ⨆ c : Fin 3, quant lo hi (X (ix4 (j 0) c h (j 1))) := by
  unfold darkest
  rw [OrderFold.map_iInf_of_monotone (quant_mono lo hi)]
  exact iInf_congr fun h => quant_chanMax lo hi X (j 0) h (j 1)

/-- Quantizing the brightest value of a column is the largest, over its rows, of the largest quantized channel. -/
theorem quant_brightest (lo hi : EReal) (X : FVec Ideal Img .f32) (j : Plane.Idx) :
    quant lo hi (brightest X j) = ⨆ h : Fin 512, ⨆ c : Fin 3, quant lo hi (X (ix4 (j 0) c h (j 1))) := by
  unfold brightest
  rw [OrderFold.map_iSup_of_monotone (quant_mono lo hi)]
  exact iSup_congr fun h => quant_chanMax lo hi X (j 0) h (j 1)

/-! ## The clamp-and-round of a whole array, and the loss -/

/-- The clamp to `[0, 255]` and the rounding down of every element of an array, as both programs spell it: the
    largest of the low bound and the element, the smallest of the high bound and that, rounded down. -/
def clipFloor {s : Shape} (hb : Scal.BroadcastsInDim s (![] : Fin 0 → Fin s.rank)) (x : FVec Ideal s .f32) : FVec Ideal s .f32 :=
  Host.floor (minimumf (broadcastInDim s ![] hb (constant (F := Ideal) Scal .f32 0x437F0000#32))
    (maximumf (broadcastInDim s ![] hb (constant (F := Ideal) Scal .f32 0x00000000#32)) x))

/-- The two bounds, as the extended reals their words denote (never evaluated: the same two words on both sides). -/
abbrev lo : EReal := Ideal.ofBits .f32 0x00000000#32
abbrev hi : EReal := Ideal.ofBits .f32 0x437F0000#32

theorem clipFloor_apply {s : Shape} (hb : Scal.BroadcastsInDim s (![] : Fin 0 → Fin s.rank)) (x : FVec Ideal s .f32) (j : s.Idx) :
    clipFloor hb x j = quant lo hi (x j) := rfl

/-- The loss: the mean over the `32 · 512` columns of the squared difference of the darkest planes `a`, `c`, plus the
    same mean for the brightest planes `b`, `d`. -/
def lossOf (hr : Plane.ReducesTo [0, 1] Scal) (h0 : 0 < Scal.numel) (a b c d : FVec Ideal Plane .f32) : FVec Ideal Scal .f32 :=
  addf
    (Host.divf (Host.reduceAdd (mulf (subf a c) (subf a c)) (constant (F := Ideal) Scal .f32 0x00000000#32) hr h0)
      (constant (F := Ideal) Scal .f32 0x46800000#32))
    (Host.divf (Host.reduceAdd (mulf (subf b d) (subf b d)) (constant (F := Ideal) Scal .f32 0x00000000#32) hr h0)
      (constant (F := Ideal) Scal .f32 0x46800000#32))

end Cert.Extrema

end
-- ==== Proof.KernelPointValue.lean ====
import proofs.«108165_j71442486001672_2_alg».proof.Proof.Gen.KernelIdeal.Frame
import Idealize.ShloMosaic.Lib.Pipeline.Value
import Idealize.ShloMosaic.Lib.Tactic
import Idealize.ShloMosaic.Lib.ValueIdx
import proofs.«108165_j71442486001672_2_alg».proof.Proof.KernelPieces
import proofs.«108165_j71442486001672_2_alg».proof.Proof.LibExtremeReduce
import proofs.«108165_j71442486001672_2_alg».proof.Proof.Extrema

noncomputable section

open Idealize.ShloMosaic Idealize.ShloMosaic.TcCoe Idealize.SL.Sem

/-!
# Indices: where a block's element sits in its argument, and what each update computes at an element

Point `t` of the `4 × 4` grid is image block `t / 4` and row block `t % 4`: its input blocks are images
`8 (t / 4) … 8 (t / 4) + 7`, all three channels, rows `128 (t % 4) … 128 (t % 4) + 127`, all 512 columns of the two
arguments. Read at an element `(b, w)` of a running block, the update of a minimum block is the smaller of what the
block held and the infimum over the point's 128 rows of the value channel (the largest of the three channels), and the
update of a maximum block the larger of what it held and the supremum over those rows.
-/

namespace Cert.KernelIdeal.PointValue

open Cert.KernelIdeal Cert.KernelIdeal.Gen Cert.KernelIdeal.Pieces Idealize.ShloMosaic.ValueIdx Idealize.ShloMosaic.ExtremeReduce

/-- Dropping the unit channel axis of a slice keeps the element at `(b, r, w)`. -/
theorem cast_apply {α : Type} (v : S8x1x128x512.Idx → α) (b : Fin 8) (r : Fin 128) (w : Fin 512) :
    shapeCast S8x128x512 v shapeCasts_S8x1x128x512_S8x128x512 (ix3 b r w) = v (ix4 b (0 : Fin 1) r w) := by
  refine shapeCast_apply v _ (ix3 b r w) (ix4 b 0 r w) ?_
  rw [Shape.rowMajor_val_four, Shape.rowMajor_val_three]
  show ((b.val * 1 + 0) * 128 + r.val) * 512 + w.val = (b.val * 128 + r.val) * 512 + w.val
  omega

/-- Element `(b, w)` of a running block with row `r` inserted on the reduced axis is `(b, r, w)`. -/
theorem lift_eq (b : Fin 8) (r : Fin 128) (w : Fin 512) :
    reduces_S8x128x512_S8x512.lift (ix2 b w) r = ix3 b r w := by
  funext a
  apply Fin.ext
  match a with
  | ⟨0, _⟩ => rfl
  | ⟨1, _⟩ => rfl
  | ⟨2, _⟩ => rfl

section AnyInstance

variable {F : FTy → Type} [FloatOps F]

theorem ch0_apply (x : Vec F S8x3x128x512 .f32) (b : Fin 8) (r : Fin 128) (w : Fin 512) :
    ch0 x (ix4 b (0 : Fin 1) r w) = x (ix4 b (0 : Fin 3) r w) := by
  show x _ = x _
  refine congrArg x (funext fun a => Fin.ext ?_)
  match a with
  | ⟨0, _⟩ => show 0 + 1 * b.val = b.val; omega
  | ⟨1, _⟩ => rfl
  | ⟨2, _⟩ => show 0 + 1 * r.val = r.val; omega
  | ⟨3, _⟩ => show 0 + 1 * w.val = w.val; omega

theorem ch1_apply (x : Vec F S8x3x128x512 .f32) (b : Fin 8) (r : Fin 128) (w : Fin 512) :
    ch1 x (ix4 b (0 : Fin 1) r w) = x (ix4 b (1 : Fin 3) r w) := by
  show x _ = x _
  refine congrArg x (funext fun a => Fin.ext ?_)
  match a with
  | ⟨0, _⟩ => show 0 + 1 * b.val = b.val; omega
  | ⟨1, _⟩ => rfl
  | ⟨2, _⟩ => show 0 + 1 * r.val = r.val; omega
  | ⟨3, _⟩ => show 0 + 1 * w.val = w.val; omega

theorem ch2_apply (x : Vec F S8x3x128x512 .f32) (b : Fin 8) (r : Fin 128) (w : Fin 512) :
    ch2 x (ix4 b (0 : Fin 1) r w) = x (ix4 b (2 : Fin 3) r w) := by
  show x _ = x _
  refine congrArg x (funext fun a => Fin.ext ?_)
  match a with
  | ⟨0, _⟩ => show 0 + 1 * b.val = b.val; omega
  | ⟨1, _⟩ => rfl
  | ⟨2, _⟩ => show 0 + 1 * r.val = r.val; omega
  | ⟨3, _⟩ => show 0 + 1 * w.val = w.val; omega

variable (m : (ℓ : Loc nD τ sig) → Buf (Elt F) ℓ)

theorem index0 : ∀ t : Fin cfg0.N, win0_0.index t 0 = t.val / 4 ∧ win0_0.index t 1 = 0 ∧ win0_0.index t 2 = t.val % 4 ∧ win0_0.index t 3 = 0 :=
  (by decide +kernel : ∀ t : Fin grid0.N, win0_0.index t 0 = t.val / 4 ∧ win0_0.index t 1 = 0 ∧ win0_0.index t 2 = t.val % 4 ∧ win0_0.index t 3 = 0)

/-- Input block 0 at point `t`, read at `(b, k, r, w)`, is argument 0 at image `8 (t / 4) + b`, channel `k`, row
    `128 (t % 4) + r`, column `w`. -/
theorem iblk0_apply (c : Dev nD) (t : Fin cfg0.N) (b : Fin 8) (k : Fin 3) (r : Fin 128) (w : Fin 512)
    (B : Fin 32) (H : Fin 512) (hB : B.val = 8 * (t.val / 4) + b.val) (hH : H.val = 128 * (t.val % 4) + r.val) :
    (iblk m c 0 t : Vec F S8x3x128x512 .f32) (ix4 b k r w)
      = (m ((c : Thread nD τ).loc main_arg0) : S32x3x512x512.Idx → Elt F .f32) (ix4 B k H w) := by
  obtain ⟨h0, h1, h2, h3⟩ := index0 t
  unfold iblk
  rw [View.read_apply]
  show V m c main_arg0 _ = m (c.tc.loc main_arg0) _
  unfold V
  refine congrArg _ (funext fun a => Fin.ext ?_)
  match a with
  | ⟨0, _⟩ => show win0_0.index t 0 * 8 + 1 * b.val = B.val; rw [h0, hB]; omega
  | ⟨1, _⟩ => show win0_0.index t 1 * 3 + 1 * k.val = k.val; rw [h1]; omega
  | ⟨2, _⟩ => show win0_0.index t 2 * 128 + 1 * r.val = H.val; rw [h2, hH]; omega
  | ⟨3, _⟩ => show win0_0.index t 3 * 512 + 1 * w.val = w.val; rw [h3]; omega

theorem index1 : ∀ t : Fin cfg0.N, win0_1.index t 0 = t.val / 4 ∧ win0_1.index t 1 = 0 ∧ win0_1.index t 2 = t.val % 4 ∧ win0_1.index t 3 = 0 :=
  (by decide +kernel : ∀ t : Fin grid0.N, win0_1.index t 0 = t.val / 4 ∧ win0_1.index t 1 = 0 ∧ win0_1.index t 2 = t.val % 4 ∧ win0_1.index t 3 = 0)

/-- Input block 1 at point `t`, read at `(b, k, r, w)`, is argument 1 at image `8 (t / 4) + b`, channel `k`, row
    `128 (t % 4) + r`, column `w`. -/
theorem iblk1_apply (c : Dev nD) (t : Fin cfg0.N) (b : Fin 8) (k : Fin 3) (r : Fin 128) (w : Fin 512)
    (B : Fin 32) (H : Fin 512) (hB : B.val = 8 * (t.val / 4) + b.val) (hH : H.val = 128 * (t.val % 4) + r.val) :
    (iblk m c 1 t : Vec F S8x3x128x512 .f32) (ix4 b k r w)
      = (m ((c : Thread nD τ).loc main_arg1) : S32x3x512x512.Idx → Elt F .f32) (ix4 B k H w) := by
  obtain ⟨h0, h1, h2, h3⟩ := index1 t
  unfold iblk
  rw [View.read_apply]
  show V m c main_arg1 _ = m (c.tc.loc main_arg1) _
  unfold V
  refine congrArg _ (funext fun a => Fin.ext ?_)
  match a with
  | ⟨0, _⟩ => show win0_1.index t 0 * 8 + 1 * b.val = B.val; rw [h0, hB]; omega
  | ⟨1, _⟩ => show win0_1.index t 1 * 3 + 1 * k.val = k.val; rw [h1]; omega
  | ⟨2, _⟩ => show win0_1.index t 2 * 128 + 1 * r.val = H.val; rw [h2, hH]; omega
  | ⟨3, _⟩ => show win0_1.index t 3 * 512 + 1 * w.val = w.val; rw [h3]; omega

end AnyInstance

/-! ## The updates at an element, on the extended reals -/

/-- The value channel of a block's three slices at `(b, r, w)`. -/
theorem pay8_apply (v3 v5 v8 : Vec Ideal S8x1x128x512 .f32) (b : Fin 8) (r : Fin 128) (w : Fin 512) :
    k0_pay8 v3 v5 v8 (ix3 b r w)
      = max (max (v3 (ix4 b (0 : Fin 1) r w)) (v5 (ix4 b (0 : Fin 1) r w))) (v8 (ix4 b (0 : Fin 1) r w)) := by
  show max (max (shapeCast S8x128x512 v3 shapeCasts_S8x1x128x512_S8x128x512 (ix3 b r w))
    (shapeCast S8x128x512 v5 shapeCasts_S8x1x128x512_S8x128x512 (ix3 b r w)))
    (shapeCast S8x128x512 v8 shapeCasts_S8x1x128x512_S8x128x512 (ix3 b r w)) = _
  rw [cast_apply, cast_apply, cast_apply]

theorem pay9_apply (v11 v13 v16 : Vec Ideal S8x1x128x512 .f32) (b : Fin 8) (r : Fin 128) (w : Fin 512) :
    k0_pay9 v11 v13 v16 (ix3 b r w)
      = max (max (v11 (ix4 b (0 : Fin 1) r w)) (v13 (ix4 b (0 : Fin 1) r w))) (v16 (ix4 b (0 : Fin 1) r w)) := by
  show max (max (shapeCast S8x128x512 v11 shapeCasts_S8x1x128x512_S8x128x512 (ix3 b r w))
    (shapeCast S8x128x512 v13 shapeCasts_S8x1x128x512_S8x128x512 (ix3 b r w)))
    (shapeCast S8x128x512 v16 shapeCasts_S8x1x128x512_S8x128x512 (ix3 b r w)) = _
  rw [cast_apply, cast_apply, cast_apply]

/-- A lane minimum of a `[8, 128, 512]` value over its rows, at `(b, w)`. -/
theorem rowMin_apply (v : FVec Ideal S8x128x512 .f32) (b : Fin 8) (w : Fin 512) :
    multiReduction .minimumf [1] S8x512 v 0x7F800000#32 reduces_S8x128x512_S8x512 (.inl rfl) rfl (ix2 b w)
      = ⨅ r : Fin 128, v (ix3 b r w) := by
  refine (multiReduction_min_single v reduces_S8x128x512_S8x512 (.inl rfl) rfl (ix2 b w)).trans ?_
  exact iInf_congr fun (r : Fin 128) => congrArg v (lift_eq b r w)

/-- A lane maximum of a `[8, 128, 512]` value over its rows, at `(b, w)`. -/
theorem rowMax_apply (v : FVec Ideal S8x128x512 .f32) (b : Fin 8) (w : Fin 512) :
    multiReduction .maximumf [1] S8x512 v 0xFF800000#32 reduces_S8x128x512_S8x512 (.inl rfl) rfl (ix2 b w)
      = ⨆ r : Fin 128, v (ix3 b r w) := by
  refine (multiReduction_max_single v reduces_S8x128x512_S8x512 (.inl rfl) rfl (ix2 b w)).trans ?_
  exact iSup_congr fun (r : Fin 128) => congrArg v (lift_eq b r w)

/-- The prediction's running minimum: the smaller of what was held and the point's row minimum of the value. -/
theorem pay10_apply (v3 v5 v8 : Vec Ideal S8x1x128x512 .f32) (v19 : Vec Ideal S8x512 .f32) (b : Fin 8) (w : Fin 512) :
    k0_pay10 v3 v5 v8 v19 (ix2 b w) = min (v19 (ix2 b w)) (⨅ r : Fin 128, k0_pay8 v3 v5 v8 (ix3 b r w)) := by
  show min (shapeCast S8x512 v19 shapeCasts_S8x512_S8x512 (ix2 b w))
    (multiReduction .minimumf [1] S8x512 (k0_pay8 v3 v5 v8) 0x7F800000#32 reduces_S8x128x512_S8x512 (.inl rfl) rfl (ix2 b w)) = _
  rw [shapeCast_self, rowMin_apply]

/-- A running maximum: the larger of what was held and the point's row maximum of the value. -/
theorem pay1_apply (v10 : FVec Ideal S8x128x512 .f32) (v24 : Vec Ideal S8x512 .f32) (b : Fin 8) (w : Fin 512) :
    k0_pay1 v10 v24 (ix2 b w) = max (v24 (ix2 b w)) (⨆ r : Fin 128, v10 (ix3 b r w)) := by
  show max (shapeCast S8x512 v24 shapeCasts_S8x512_S8x512 (ix2 b w))
    (multiReduction .maximumf [1] S8x512 v10 0xFF800000#32 reduces_S8x128x512_S8x512 (.inl rfl) rfl (ix2 b w)) = _
  rw [shapeCast_self, rowMax_apply]

/-- The target's running minimum. -/
theorem pay2_apply (v18 : FVec Ideal S8x128x512 .f32) (v29 : Vec Ideal S8x512 .f32) (b : Fin 8) (w : Fin 512) :
    k0_pay2 v18 v29 (ix2 b w) = min (v29 (ix2 b w)) (⨅ r : Fin 128, v18 (ix3 b r w)) := by
  show min (shapeCast S8x512 v29 shapeCasts_S8x512_S8x512 (ix2 b w))
    (multiReduction .minimumf [1] S8x512 v18 0x7F800000#32 reduces_S8x128x512_S8x512 (.inl rfl) rfl (ix2 b w)) = _
  rw [shapeCast_self, rowMin_apply]

/-- The target's running maximum. -/
theorem pay3_apply (v18 : FVec Ideal S8x128x512 .f32) (v34 : Vec Ideal S8x512 .f32) (b : Fin 8) (w : Fin 512) :
    k0_pay3 v18 v34 (ix2 b w) = max (v34 (ix2 b w)) (⨆ r : Fin 128, v18 (ix3 b r w)) := by
  show max (shapeCast S8x512 v34 shapeCasts_S8x512_S8x512 (ix2 b w))
    (multiReduction .maximumf [1] S8x512 v18 0xFF800000#32 reduces_S8x128x512_S8x512 (.inl rfl) rfl (ix2 b w)) = _
  rw [shapeCast_self, rowMax_apply]

/-- The resets: `+∞` for a minimum block, `-∞` for a maximum block. -/
theorem pay4_apply (j : S8x512.Idx) : (k0_pay4 (F := Ideal)) j = ⊤ := ofBits_posInf
theorem pay5_apply (j : S8x512.Idx) : (k0_pay5 (F := Ideal)) j = ⊥ := ofBits_negInf
theorem pay6_apply (j : S8x512.Idx) : (k0_pay6 (F := Ideal)) j = ⊤ := ofBits_posInf
theorem pay7_apply (j : S8x512.Idx) : (k0_pay7 (F := Ideal)) j = ⊥ := ofBits_negInf

end Cert.KernelIdeal.PointValue

end
-- ==== Proof.KernelSweep.lean ====
import proofs.«108165_j71442486001672_2_alg».proof.Proof.Gen.KernelIdeal.Frame
import Idealize.ShloMosaic.Lib.Pipeline.Value
import Idealize.ShloMosaic.Lib.Tactic
import Idealize.ShloMosaic.Lib.ValueIdx
import proofs.«108165_j71442486001672_2_alg».proof.Proof.KernelPointValue

noncomputable section

open Idealize.ShloMosaic Idealize.ShloMosaic.TcCoe Idealize.SL.Sem

/-!
# The four running blocks after each grid point

Within image block `t / 4` the grid visits row blocks `0, 1, 2, 3` in turn. After row block `k` the prediction's
minimum block holds, at `(b, w)`, the infimum of the value channel of image `8 (t / 4) + b`, column `w`, over the rows
below `128 (k + 1)`; its maximum block the supremum over the same rows; the target's two blocks likewise. The proof is
an induction on the point: the first row block folds its 128 rows into the reset (`⊤` is the infimum over no rows, `⊥`
the supremum), a later one into what the point before left, and each time the rows below `128 k` and the block of 128
rows from `128 k` make the rows below `128 (k + 1)`.
-/

namespace Cert.KernelIdeal.Sweep

open Cert.KernelIdeal Cert.KernelIdeal.Gen Cert.KernelIdeal.Pieces Cert.KernelIdeal.PointValue
open Idealize.ShloMosaic.ValueIdx Idealize.ShloMosaic.ExtremeReduce Cert.Extrema OrderFold

section AnyInstance

variable {F : FTy → Type} [FloatOps F]
variable (m : (ℓ : Loc nD τ sig) → Buf (Elt F) ℓ)

/-- At the first row block of an image block the four blocks are the updates over the resets. -/
theorem at_first (c : Dev nD) (t : Fin cfg0.N) (h0 : t.val % 4 = 0) :
    outsAt0 m c t.val t.isLt =
      (k0_pay10 (ch0 (iblk m c 0 t)) (ch1 (iblk m c 0 t)) (ch2 (iblk m c 0 t)) k0_pay4,
       k0_pay1 (k0_pay8 (ch0 (iblk m c 0 t)) (ch1 (iblk m c 0 t)) (ch2 (iblk m c 0 t))) k0_pay5,
       k0_pay2 (k0_pay9 (ch0 (iblk m c 1 t)) (ch1 (iblk m c 1 t)) (ch2 (iblk m c 1 t))) k0_pay6,
       k0_pay3 (k0_pay9 (ch0 (iblk m c 1 t)) (ch1 (iblk m c 1 t)) (ch2 (iblk m c 1 t))) k0_pay7) := by
  rw [outsAt0_A m c t h0, caseA_2, caseA_3, caseA_4, caseA_5]

/-- At a later row block they are the updates over what the point before left. -/
theorem at_later (c : Dev nD) (t : Fin cfg0.N) (h0 : ¬t.val % 4 = 0) :
    outsAt0 m c t.val t.isLt =
      (k0_pay10 (ch0 (iblk m c 0 t)) (ch1 (iblk m c 0 t)) (ch2 (iblk m c 0 t)) (outsAt0 m c (t.val - 1) (Nat.lt_of_le_of_lt (Nat.sub_le _ _) t.isLt)).1,
       k0_pay1 (k0_pay8 (ch0 (iblk m c 0 t)) (ch1 (iblk m c 0 t)) (ch2 (iblk m c 0 t))) (outsAt0 m c (t.val - 1) (Nat.lt_of_le_of_lt (Nat.sub_le _ _) t.isLt)).2.1,
       k0_pay2 (k0_pay9 (ch0 (iblk m c 1 t)) (ch1 (iblk m c 1 t)) (ch2 (iblk m c 1 t))) (outsAt0 m c (t.val - 1) (Nat.lt_of_le_of_lt (Nat.sub_le _ _) t.isLt)).2.2.1,
       k0_pay3 (k0_pay9 (ch0 (iblk m c 1 t)) (ch1 (iblk m c 1 t)) (ch2 (iblk m c 1 t))) (outsAt0 m c (t.val - 1) (Nat.lt_of_le_of_lt (Nat.sub_le _ _) t.isLt)).2.2.2) := by
  rw [outsAt0_B m c t h0, caseB_2, caseB_3, caseB_4, caseB_5]

end AnyInstance

variable (m : (ℓ : Loc nD τ sig) → Buf (Elt Ideal) ℓ)

/-- The value channel of the point's prediction block at `(b, r, w)` is the value of the pixel it was fetched from. -/
theorem blockVal0 (c : Dev nD) (t : Fin cfg0.N) (b : Fin 8) (r : Fin 128) (w : Fin 512) (B : Fin 32)
    (hB : B.val = 8 * (t.val / 4) + b.val) (hH : 128 * (t.val % 4) + r.val < 512) :
    k0_pay8 (ch0 (iblk m c 0 t)) (ch1 (iblk m c 0 t)) (ch2 (iblk m c 0 t)) (ix3 b r w) = chanMax (m ((c : Thread nD τ).loc main_arg0)) B ⟨128 * (t.val % 4) + r.val, hH⟩ w := by
  rw [pay8_apply, ch0_apply, ch1_apply, ch2_apply,
    iblk0_apply m c t b 0 r w B ⟨_, hH⟩ hB rfl, iblk0_apply m c t b 1 r w B ⟨_, hH⟩ hB rfl,
    iblk0_apply m c t b 2 r w B ⟨_, hH⟩ hB rfl]
  rfl

/-- The same for the target block. -/
theorem blockVal1 (c : Dev nD) (t : Fin cfg0.N) (b : Fin 8) (r : Fin 128) (w : Fin 512) (B : Fin 32)
    (hB : B.val = 8 * (t.val / 4) + b.val) (hH : 128 * (t.val % 4) + r.val < 512) :
    k0_pay9 (ch0 (iblk m c 1 t)) (ch1 (iblk m c 1 t)) (ch2 (iblk m c 1 t)) (ix3 b r w) = chanMax (m ((c : Thread nD τ).loc main_arg1)) B ⟨128 * (t.val % 4) + r.val, hH⟩ w := by
  rw [pay9_apply, ch0_apply, ch1_apply, ch2_apply,
    iblk1_apply m c t b 0 r w B ⟨_, hH⟩ hB rfl, iblk1_apply m c t b 1 r w B ⟨_, hH⟩ hB rfl,
    iblk1_apply m c t b 2 r w B ⟨_, hH⟩ hB rfl]
  rfl

/-- Folding one more block of 128 rows into an infimum over the rows below `128 k`. -/
theorem step_min (f : Fin 512 → EReal) (g : Fin 128 → EReal) (k : ℕ) (hk : k < 4) (prev : EReal)
    (hprev : prev = infBelow f (128 * k))
    (hg : ∀ (r : Fin 128) (hr : 128 * k + r.val < 512), g r = f ⟨128 * k + r.val, hr⟩) :
    min prev (⨅ r, g r) = infBelow f (128 * (k + 1)) := by
  rw [hprev]
  exact min_infBelow_block f k (by omega) g hg

/-- Folding one more block of 128 rows into a supremum over the rows below `128 k`. -/
theorem step_max (f : Fin 512 → EReal) (g : Fin 128 → EReal) (k : ℕ) (hk : k < 4) (prev : EReal)
    (hprev : prev = supBelow f (128 * k))
    (hg : ∀ (r : Fin 128) (hr : 128 * k + r.val < 512), g r = f ⟨128 * k + r.val, hr⟩) :
    max prev (⨆ r, g r) = supBelow f (128 * (k + 1)) := by
  rw [hprev]
  exact max_supBelow_block f k (by omega) g hg

/-- What the four blocks hold after point `n`, at `(b, w)`: the extremes of the value channel of image
    `B = 8 (n / 4) + b`, column `w`, over the rows below `128 (n % 4 + 1)`. -/
def Held (c : Dev nD) (n : ℕ) (hn : n < cfg0.N) : Prop :=
  ∀ (b : Fin 8) (w : Fin 512) (B : Fin 32), B.val = 8 * (n / 4) + b.val →
    (outsAt0 m c n hn).1 (ix2 b w) = infBelow (fun h => chanMax (m ((c : Thread nD τ).loc main_arg0)) B h w) (128 * (n % 4 + 1))
    ∧ (outsAt0 m c n hn).2.1 (ix2 b w) = supBelow (fun h => chanMax (m ((c : Thread nD τ).loc main_arg0)) B h w) (128 * (n % 4 + 1))
    ∧ (outsAt0 m c n hn).2.2.1 (ix2 b w) = infBelow (fun h => chanMax (m ((c : Thread nD τ).loc main_arg1)) B h w) (128 * (n % 4 + 1))
    ∧ (outsAt0 m c n hn).2.2.2 (ix2 b w) = supBelow (fun h => chanMax (m ((c : Thread nD τ).loc main_arg1)) B h w) (128 * (n % 4 + 1))

/-- A first row block: the resets are the extremes over no rows. -/
theorem held_first (c : Dev nD) (n : ℕ) (hn : n < cfg0.N) (h0 : n % 4 = 0) : Held m c n hn := by
  intro b w B hB
  have e := at_first m c ⟨n, hn⟩ h0
  have hk : n % 4 < 4 := Nat.mod_lt _ (by decide)
  rw [show outsAt0 m c n hn = _ from e]
  dsimp only
  refine ⟨?_, ?_, ?_, ?_⟩
  · rw [pay10_apply]
    exact step_min _ _ (n % 4) hk _ (by rw [pay4_apply, h0]; exact (infBelow_zero _).symm)
      (fun r hr => blockVal0 m c ⟨n, hn⟩ b r w B hB hr)
  · rw [pay1_apply]
    exact step_max _ _ (n % 4) hk _ (by rw [pay5_apply, h0]; exact (supBelow_zero _).symm)
      (fun r hr => blockVal0 m c ⟨n, hn⟩ b r w B hB hr)
  · rw [pay2_apply]
    exact step_min _ _ (n % 4) hk _ (by rw [pay6_apply, h0]; exact (infBelow_zero _).symm)
      (fun r hr => blockVal1 m c ⟨n, hn⟩ b r w B hB hr)
  · rw [pay3_apply]
    exact step_max _ _ (n % 4) hk _ (by rw [pay7_apply, h0]; exact (supBelow_zero _).symm)
      (fun r hr => blockVal1 m c ⟨n, hn⟩ b r w B hB hr)

/-- A later row block: one more block of rows folded into what the point before held. -/
theorem held_later (c : Dev nD) (n : ℕ) (hn : n + 1 < cfg0.N) (h0 : ¬(n + 1) % 4 = 0)
    (ih : Held m c n (Nat.lt_of_succ_lt hn)) : Held m c (n + 1) hn := by
  intro b w B hB
  have e := at_later m c ⟨n + 1, hn⟩ h0
  have hk : (n + 1) % 4 < 4 := Nat.mod_lt _ (by decide)
  have hq : n / 4 = (n + 1) / 4 := by omega
  have hr' : n % 4 + 1 = (n + 1) % 4 := by omega
  obtain ⟨i1, i2, i3, i4⟩ := ih b w B (by rw [hq]; exact hB)
  rw [hr'] at i1 i2 i3 i4
  rw [show outsAt0 m c (n + 1) hn = _ from e]
  dsimp only
  refine ⟨?_, ?_, ?_, ?_⟩
  · rw [pay10_apply]
    exact step_min _ _ ((n + 1) % 4) hk _ i1 (fun r hr => blockVal0 m c ⟨n + 1, hn⟩ b r w B hB hr)
  · rw [pay1_apply]
    exact step_max _ _ ((n + 1) % 4) hk _ i2 (fun r hr => blockVal0 m c ⟨n + 1, hn⟩ b r w B hB hr)
  · rw [pay2_apply]
    exact step_min _ _ ((n + 1) % 4) hk _ i3 (fun r hr => blockVal1 m c ⟨n + 1, hn⟩ b r w B hB hr)
  · rw [pay3_apply]
    exact step_max _ _ ((n + 1) % 4) hk _ i4 (fun r hr => blockVal1 m c ⟨n + 1, hn⟩ b r w B hB hr)

/-- After every point, by induction on the point. -/
theorem held (c : Dev nD) : ∀ (n : ℕ) (hn : n < cfg0.N), Held m c n hn
  | 0, hn => held_first m c 0 hn rfl
  | n + 1, hn => by
    by_cases h0 : (n + 1) % 4 = 0
    · exact held_first m c (n + 1) hn h0
    · exact held_later m c n hn h0 (held c n (Nat.lt_of_succ_lt hn))

/-- After the last row block of an image block the four blocks hold the extremes over all 512 rows. -/
theorem held_last (c : Dev nD) (t : Fin cfg0.N) (h3 : t.val % 4 = 3) (b : Fin 8) (w : Fin 512) (B : Fin 32)
    (hB : B.val = 8 * (t.val / 4) + b.val) :
    (outsAt0 m c t.val t.isLt).1 (ix2 b w) = darkest (m ((c : Thread nD τ).loc main_arg0)) (ix2 B w)
    ∧ (outsAt0 m c t.val t.isLt).2.1 (ix2 b w) = brightest (m ((c : Thread nD τ).loc main_arg0)) (ix2 B w)
    ∧ (outsAt0 m c t.val t.isLt).2.2.1 (ix2 b w) = darkest (m ((c : Thread nD τ).loc main_arg1)) (ix2 B w)
    ∧ (outsAt0 m c t.val t.isLt).2.2.2 (ix2 b w) = brightest (m ((c : Thread nD τ).loc main_arg1)) (ix2 B w) := by
  obtain ⟨i1, i2, i3, i4⟩ := held m c t.val t.isLt b w B hB
  rw [h3] at i1 i2 i3 i4
  exact ⟨i1.trans (infBelow_all _ (by decide)), i2.trans (supBelow_all _ (by decide)),
    i3.trans (infBelow_all _ (by decide)), i4.trans (supBelow_all _ (by decide))⟩

end Cert.KernelIdeal.Sweep

end
-- ==== Proof.KernelArrays.lean ====
import proofs.«108165_j71442486001672_2_alg».proof.Proof.Gen.KernelIdeal.Frame
import Idealize.ShloMosaic.Lib.Pipeline.Value
import Idealize.ShloMosaic.Lib.Tactic
import Idealize.ShloMosaic.Lib.ValueIdx
import proofs.«108165_j71442486001672_2_alg».proof.Proof.KernelSweep

noncomputable section

open Idealize.ShloMosaic Idealize.ShloMosaic.TcCoe Idealize.SL.Sem

/-!
# The four output arrays after the run

Each `[32, 512]` output array is written back one image block of 8 rows at a time, by the last row block of that
image block (the points `t` with `t % 4 = 3`), when the running block holds the extremes over all 512 image rows. The
four image blocks tile the array, so the prediction's two arrays end at the darkest and the brightest plane of the
prediction, and the target's two at those of the target.
-/

namespace Cert.KernelIdeal.Arrays

open Cert.KernelIdeal Cert.KernelIdeal.Gen Cert.KernelIdeal.Sweep
open Idealize.ShloMosaic.ValueIdx Cert.Extrema
open Idealize.ShloMosaic.Pipeline (Dat)

/-- An output window's block index is the image block, whatever the row block. -/
theorem indexOut2 : ∀ t : Fin cfg0.N, win0_2.index t 0 = t.val / 4 ∧ win0_2.index t 1 = 0 :=
  (by decide +kernel : ∀ t : Fin grid0.N, win0_2.index t 0 = t.val / 4 ∧ win0_2.index t 1 = 0)
theorem indexOut3 : ∀ t : Fin cfg0.N, win0_3.index t 0 = t.val / 4 ∧ win0_3.index t 1 = 0 :=
  (by decide +kernel : ∀ t : Fin grid0.N, win0_3.index t 0 = t.val / 4 ∧ win0_3.index t 1 = 0)
theorem indexOut4 : ∀ t : Fin cfg0.N, win0_4.index t 0 = t.val / 4 ∧ win0_4.index t 1 = 0 :=
  (by decide +kernel : ∀ t : Fin grid0.N, win0_4.index t 0 = t.val / 4 ∧ win0_4.index t 1 = 0)
theorem indexOut5 : ∀ t : Fin cfg0.N, win0_5.index t 0 = t.val / 4 ∧ win0_5.index t 1 = 0 :=
  (by decide +kernel : ∀ t : Fin grid0.N, win0_5.index t 0 = t.val / 4 ∧ win0_5.index t 1 = 0)

variable (m : (ℓ : Loc nD τ sig) → Buf (Elt Ideal) ℓ)

/-- What the last row block of an image block writes back through window 2 is that image block of the prediction's darkest plane. -/
theorem flushed2_eq (c : Dev nD) (t : Fin cfg0.N) (hf : (cfg0.win 2).flush t = true) :
    (dats m 0 c).flushed 2 t = ((cfg0.win 2).blk t).view.read (Elt Ideal) (darkest (m ((c : Thread nD τ).loc main_arg0))) := by
  have h3 : t.val % 4 = 3 := (flush0_2 t).mp hf
  have hN : t.val < 16 := lt_of_lt_of_eq t.isLt (show cfg0.N = 16 from N_0)
  have e0 : win0_2.index t 0 = t.val / 4 := (indexOut2 t).1
  have e1 : win0_2.index t 1 = 0 := (indexOut2 t).2
  show (cfg0.win 2).cut (grid0.coords t) ((dats m 0 c).after 2 t) = _
  rw [after0_2]
  funext y
  obtain ⟨b, w, rfl⟩ : ∃ (b : Fin 8) (w : Fin 512), y = ix2 b w := ⟨y 0, y 1, eq_ix2 y⟩
  have hb : b.val < 8 := b.isLt
  show (outsAt0 m c t.val t.isLt).1 (ix2 b w) = (darkest (m ((c : Thread nD τ).loc main_arg0))) (((cfg0.win 2).blk t).view.emb (ix2 b w))
  have hy : ((cfg0.win 2).blk t).view.emb (ix2 b w) = ix2 (⟨8 * (t.val / 4) + b.val, by omega⟩ : Fin 32) w := by
    funext a
    apply Fin.ext
    match a with
    | ⟨0, _⟩ => show win0_2.index t 0 * 8 + 1 * b.val = 8 * (t.val / 4) + b.val; rw [e0]; omega
    | ⟨1, _⟩ => show win0_2.index t 1 * 512 + 1 * w.val = w.val; rw [e1]; omega
  rw [hy]
  exact (held_last m c t h3 b w _ rfl).1

/-- Every column of the array is in the block some last row block writes back. -/
theorem cover2 (i : S32x512.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hN : cfg0.N = 16 := N_0
  obtain ⟨t, ht⟩ : ∃ t : Fin cfg0.N, t.val = 4 * ((i 0).val / 8) + 3 := ⟨⟨_, by rw [hN]; omega⟩, rfl⟩
  have e0 : win0_2.index t 0 = t.val / 4 := (indexOut2 t).1
  have e1 : win0_2.index t 1 = 0 := (indexOut2 t).2
  refine ⟨t, (flush0_2 t).mpr (by omega), ?_⟩
  show i ∈ ((View.whole main_v0_0).slice (win0_2.rect t)).set
  rw [View.set_slice_whole, Rect.mem_set_unit]
  intro a
  match a with
  | ⟨0, _⟩ =>
    show win0_2.index t 0 * 8 ≤ (i 0).val ∧ (i 0).val < win0_2.index t 0 * 8 + 8
    rw [e0]; omega
  | ⟨1, _⟩ =>
    show win0_2.index t 1 * 512 ≤ (i 1).val ∧ (i 1).val < win0_2.index t 1 * 512 + 512
    rw [e1]; omega

/-- So the array ends holding the prediction's darkest plane. -/
theorem final2 (c : Dev nD) : (dats m 0 c).arrAt 2 cfg0.N = (darkest (m ((c : Thread nD τ).loc main_arg0))) :=
  (dats m 0 c).arrAt_eq_of_cover 2 (darkest (m ((c : Thread nD τ).loc main_arg0))) (flushed2_eq m c) cover2

/-- What the last row block of an image block writes back through window 3 is that image block of the prediction's brightest plane. -/
theorem flushed3_eq (c : Dev nD) (t : Fin cfg0.N) (hf : (cfg0.win 3).flush t = true) :
    (dats m 0 c).flushed 3 t = ((cfg0.win 3).blk t).view.read (Elt Ideal) (brightest (m ((c : Thread nD τ).loc main_arg0))) := by
  have h3 : t.val % 4 = 3 := (flush0_3 t).mp hf
  have hN : t.val < 16 := lt_of_lt_of_eq t.isLt (show cfg0.N = 16 from N_0)
  have e0 : win0_3.index t 0 = t.val / 4 := (indexOut3 t).1
  have e1 : win0_3.index t 1 = 0 := (indexOut3 t).2
  show (cfg0.win 3).cut (grid0.coords t) ((dats m 0 c).after 3 t) = _
  rw [after0_3]
  funext y
  obtain ⟨b, w, rfl⟩ : ∃ (b : Fin 8) (w : Fin 512), y = ix2 b w := ⟨y 0, y 1, eq_ix2 y⟩
  have hb : b.val < 8 := b.isLt
  show (outsAt0 m c t.val t.isLt).2.1 (ix2 b w) = (brightest (m ((c : Thread nD τ).loc main_arg0))) (((cfg0.win 3).blk t).view.emb (ix2 b w))
  have hy : ((cfg0.win 3).blk t).view.emb (ix2 b w) = ix2 (⟨8 * (t.val / 4) + b.val, by omega⟩ : Fin 32) w := by
    funext a
    apply Fin.ext
    match a with
    | ⟨0, _⟩ => show win0_3.index t 0 * 8 + 1 * b.val = 8 * (t.val / 4) + b.val; rw [e0]; omega
    | ⟨1, _⟩ => show win0_3.index t 1 * 512 + 1 * w.val = w.val; rw [e1]; omega
  rw [hy]
  exact (held_last m c t h3 b w _ rfl).2.1

/-- Every column of the array is in the block some last row block writes back. -/
theorem cover3 (i : S32x512.Idx) :
    ∃ t : Fin cfg0.N, (cfg0.win 3).flush t = true ∧ i ∈ ((cfg0.win 3).blk t).view.set := by
  have hi0 : (i 0).val < 32 := (i 0).isLt
  have hi1 : (i 1).val < 512 := (i 1).isLt
  have hN : cfg0.N = 16 := N_0
  obtain ⟨t, ht⟩ : ∃ t : Fin cfg0.N, t.val = 4 * ((i 0).val / 8) + 3 := ⟨⟨_, by rw [hN]; omega⟩, rfl⟩
  have e0 : win0_3.index t 0 = t.val / 4 := (indexOut3 t).1
  have e1 : win0_3.index t 1 = 0 := (indexOut3 t).2
  refine ⟨t, (flush0_3 t).mpr (by omega), ?_⟩
  show i ∈ ((View.whole main_v0_1).slice (win0_3.rect t)).set
  rw [View.set_slice_whole, Rect.mem_set_unit]
  intro a
  match a with
  | ⟨0, _⟩ =>
    show win0_3.index t 0 * 8 ≤ (i 0).val ∧ (i 0).val < win0_3.index t 0 * 8 + 8
    rw [e0]; omega
  | ⟨1, _⟩ =>
    show win0_3.index t 1 * 512 ≤ (i 1).val ∧ (i 1).val < win0_3.index t 1 * 512 + 512
    rw [e1]; omega

/-- So the array ends holding the prediction's brightest plane. -/
theorem final3 (c : Dev nD) : (dats m 0 c).arrAt 3 cfg0.N = (brightest (m ((c : Thread nD τ).loc main_arg0))) :=
  (dats m 0 c).arrAt_eq_of_cover 3 (brightest (m ((c : Thread nD τ).loc main_arg0))) (flushed3_eq m c) cover3

/-- What the last row block of an image block writes back through window 4 is that image block of the target's darkest plane. -/
theorem flushed4_eq (c : Dev nD) (t : Fin cfg0.N) (hf : (cfg0.win 4).flush t = true) :
    (dats m 0 c).flushed 4 t = ((cfg0.win 4).blk t).view.read (Elt Ideal) (darkest (m ((c : Thread nD τ).loc main_arg1))) := by
  have h3 : t.val % 4 = 3 := (flush0_4 t).mp hf
  have hN : t.val < 16 := lt_of_lt_of_eq t.isLt (show cfg0.N = 16 from N_0)
  have e0 : win0_4.index t 0 = t.val / 4 := (indexOut4 t).1
  have e1 : win0_4.index t 1 = 0 := (indexOut4 t).2
  show (cfg0.win 4).cut (grid0.coords t) ((dats m 0 c).after 4 t) = _
  rw [after0_4]
  funext y
  obtain ⟨b, w, rfl⟩ : ∃ (b : Fin 8) (w : Fin 512), y = ix2 b w := ⟨y 0, y 1, eq_ix2 y⟩
  have hb : b.val < 8 := b.isLt
  show (outsAt0 m c t.val t.isLt).2.2.1 (ix2 b w) = (darkest (m ((c : Thread nD τ).loc main_arg1))) (((cfg0.win 4).blk t).view.emb (ix2 b w))
  have hy : ((cfg0.win 4).blk t).view.emb (ix2 b w) = ix2 (⟨8 * (t.val / 4) + b.val, by omega⟩ : Fin 32) w := by
    funext a
    apply Fin.ext
    match a with
    | ⟨0, _⟩ => show win0_4.index t 0 * 8 + 1 * b.val = 8 * (t.val / 4) + b.val; rw [e0]; omega
    | ⟨1, _⟩ => show win0_4.index t 1 * 512 + 1 * w.val = w.val; rw [e1]; omega
  rw [hy]
  exact (held_last m c t h3 b w _ rfl).2.2.1

/-- Every column of the array is in the block some last row block writes back. -/
theorem cover4 (i : S32x512.Idx) :
    ∃ t : Fin cfg0.N, (cfg0.win 4).flush t = true ∧ i ∈ ((cfg0.win 4).blk t).view.set := by
  have hi0 : (i 0).val < 32 := (i 0).isLt
  have hi1 : (i 1).val < 512 := (i 1).isLt
  have hN : cfg0.N = 16 := N_0
  obtain ⟨t, ht⟩ : ∃ t : Fin cfg0.N, t.val = 4 * ((i 0).val / 8) + 3 := ⟨⟨_, by rw [hN]; omega⟩, rfl⟩
  have e0 : win0_4.index t 0 = t.val / 4 := (indexOut4 t).1
  have e1 : win0_4.index t 1 = 0 := (indexOut4 t).2
  refine ⟨t, (flush0_4 t).mpr (by omega), ?_⟩
  show i ∈ ((View.whole main_v0_2).slice (win0_4.rect t)).set
  rw [View.set_slice_whole, Rect.mem_set_unit]
  intro a
  match a with
  | ⟨0, _⟩ =>
    show win0_4.index t 0 * 8 ≤ (i 0).val ∧ (i 0).val < win0_4.index t 0 * 8 + 8
    rw [e0]; omega
  | ⟨1, _⟩ =>
    show win0_4.index t 1 * 512 ≤ (i 1).val ∧ (i 1).val < win0_4.index t 1 * 512 + 512
    rw [e1]; omega

/-- So the array ends holding the target's darkest plane. -/
theorem final4 (c : Dev nD) : (dats m 0 c).arrAt 4 cfg0.N = (darkest (m ((c : Thread nD τ).loc main_arg1))) :=
  (dats m 0 c).arrAt_eq_of_cover 4 (darkest (m ((c : Thread nD τ).loc main_arg1))) (flushed4_eq m c) cover4

/-- What the last row block of an image block writes back through window 5 is that image block of the target's brightest plane. -/
theorem flushed5_eq (c : Dev nD) (t : Fin cfg0.N) (hf : (cfg0.win 5).flush t = true) :
    (dats m 0 c).flushed 5 t = ((cfg0.win 5).blk t).view.read (Elt Ideal) (brightest (m ((c : Thread nD τ).loc main_arg1))) := by
  have h3 : t.val % 4 = 3 := (flush0_5 t).mp hf
  have hN : t.val < 16 := lt_of_lt_of_eq t.isLt (show cfg0.N = 16 from N_0)
  have e0 : win0_5.index t 0 = t.val / 4 := (indexOut5 t).1
  have e1 : win0_5.index t 1 = 0 := (indexOut5 t).2
  show (cfg0.win 5).cut (grid0.coords t) ((dats m 0 c).after 5 t) = _
  rw [after0_5]
  funext y
  obtain ⟨b, w, rfl⟩ : ∃ (b : Fin 8) (w : Fin 512), y = ix2 b w := ⟨y 0, y 1, eq_ix2 y⟩
  have hb : b.val < 8 := b.isLt
  show (outsAt0 m c t.val t.isLt).2.2.2 (ix2 b w) = (brightest (m ((c : Thread nD τ).loc main_arg1))) (((cfg0.win 5).blk t).view.emb (ix2 b w))
  have hy : ((cfg0.win 5).blk t).view.emb (ix2 b w) = ix2 (⟨8 * (t.val / 4) + b.val, by omega⟩ : Fin 32) w := by
    funext a
    apply Fin.ext
    match a with
    | ⟨0, _⟩ => show win0_5.index t 0 * 8 + 1 * b.val = 8 * (t.val / 4) + b.val; rw [e0]; omega
    | ⟨1, _⟩ => show win0_5.index t 1 * 512 + 1 * w.val = w.val; rw [e1]; omega
  rw [hy]
  exact (held_last m c t h3 b w _ rfl).2.2.2

/-- Every column of the array is in the block some last row block writes back. -/
theorem cover5 (i : S32x512.Idx) :
    ∃ t : Fin cfg0.N, (cfg0.win 5).flush t = true ∧ i ∈ ((cfg0.win 5).blk t).view.set := by
  have hi0 : (i 0).val < 32 := (i 0).isLt
  have hi1 : (i 1).val < 512 := (i 1).isLt
  have hN : cfg0.N = 16 := N_0
  obtain ⟨t, ht⟩ : ∃ t : Fin cfg0.N, t.val = 4 * ((i 0).val / 8) + 3 := ⟨⟨_, by rw [hN]; omega⟩, rfl⟩
  have e0 : win0_5.index t 0 = t.val / 4 := (indexOut5 t).1
  have e1 : win0_5.index t 1 = 0 := (indexOut5 t).2
  refine ⟨t, (flush0_5 t).mpr (by omega), ?_⟩
  show i ∈ ((View.whole main_v0_3).slice (win0_5.rect t)).set
  rw [View.set_slice_whole, Rect.mem_set_unit]
  intro a
  match a with
  | ⟨0, _⟩ =>
    show win0_5.index t 0 * 8 ≤ (i 0).val ∧ (i 0).val < win0_5.index t 0 * 8 + 8
    rw [e0]; omega
  | ⟨1, _⟩ =>
    show win0_5.index t 1 * 512 ≤ (i 1).val ∧ (i 1).val < win0_5.index t 1 * 512 + 512
    rw [e1]; omega

/-- So the array ends holding the target's brightest plane. -/
theorem final5 (c : Dev nD) : (dats m 0 c).arrAt 5 cfg0.N = (brightest (m ((c : Thread nD τ).loc main_arg1))) :=
  (dats m 0 c).arrAt_eq_of_cover 5 (brightest (m ((c : Thread nD τ).loc main_arg1))) (flushed5_eq m c) cover5

end Cert.KernelIdeal.Arrays

end
-- ==== Proof.KernelTail.lean ====
import proofs.«108165_j71442486001672_2_alg».proof.Proof.Gen.KernelIdeal.Frame
import Idealize.ShloMosaic.Lib.Pipeline.Value
import Idealize.ShloMosaic.Lib.Tactic
import Idealize.ShloMosaic.Lib.StableHlo.Run
import proofs.«108165_j71442486001672_2_alg».proof.Proof.KernelArrays

noncomputable section

open Idealize.ShloMosaic Idealize.ShloMosaic.TcCoe Idealize.SL.Sem

/-!
# The host lines after the region, and the kernel program's run

After the region the program clamps and rounds each of the four output arrays and takes the loss of the four
planes. Read at the result buffer, over ANY contents of the buffers, the 49 host operations compose to `lossOf` of the
four clamped and rounded arrays (the sums, the rounding and the quotients are kept folded: the equation never looks
inside them). With the arrays at the darkest and brightest planes of the two arguments this names the program's result:
`kernelOut`.
-/

namespace Cert.KernelIdeal.Tail

open Cert.KernelIdeal Cert.KernelIdeal.Gen Cert.KernelIdeal.Arrays
open Idealize.ShloMosaic.StableHlo Cert.Extrema
open Idealize.ShloMosaic.Pipeline (Dat)

/-- The program's result as a function of its two arguments: the loss of the clamped and rounded extremes. -/
def kernelOut (X0 X1 : FVec Ideal S32x3x512x512 .f32) : FVec Ideal S_ .f32 :=
  lossOf reducesTo_S32x512_S_d0_1 h_S_ (clipFloor bcast_S_S32x512 (darkest X0)) (clipFloor bcast_S_S32x512 (brightest X0))
    (clipFloor bcast_S_S32x512 (darkest X1)) (clipFloor bcast_S_S32x512 (brightest X1))

attribute [local irreducible] Host.reduceAdd Host.floor Host.divf in
set_option maxRecDepth 8192 in
set_option maxHeartbeats 1000000 in
/-- The host lines after the region, folded at the result buffer over any contents `W`. -/
theorem tail_eq (W : Valuation τ sig (Elt Ideal)) :
    StableHlo.after (List.flatten ([hostOps1, hostOps1_1, hostOps1_2, hostOps1_3, hostOps1_4, hostOps1_5, hostOps1_6, hostOps1_7, hostOps1_8] : List (List (HloOp τ sig (Elt Ideal))))) W (Proc.devRef .tc main_v17)
      = lossOf reducesTo_S32x512_S_d0_1 h_S_
          (clipFloor bcast_S_S32x512 (W (Proc.devRef .tc main_v0_0))) (clipFloor bcast_S_S32x512 (W (Proc.devRef .tc main_v0_1)))
          (clipFloor bcast_S_S32x512 (W (Proc.devRef .tc main_v0_2))) (clipFloor bcast_S_S32x512 (W (Proc.devRef .tc main_v0_3))) := by
  simp only [hostOps1, hostOps1_1, hostOps1_2, hostOps1_3, hostOps1_4, hostOps1_5, hostOps1_6, hostOps1_7, hostOps1_8,
    List.flatten_cons, List.flatten_nil, List.append_nil, List.cons_append, List.nil_append]
  after_results_simp
  rfl

variable (m : (ℓ : Loc nD τ sig) → Buf (Elt Ideal) ℓ) (ρ : Dev nD → PrngReg)

/-- The result buffer after the run: the tail over the four arrays the region leaves. -/
theorem out_eq (c : Dev nD) :
    Pipeline.afterTail₀ cfgs (dats m) 0 (V0 m) [hostOps1, hostOps1_1, hostOps1_2, hostOps1_3, hostOps1_4, hostOps1_5, hostOps1_6, hostOps1_7, hostOps1_8] c main_v17
      = kernelOut (m ((c : Thread nD τ).loc main_arg0)) (m ((c : Thread nD τ).loc main_arg1)) := by
  unfold Pipeline.afterTail₀
  refine (tail_eq _).trans ?_
  unfold kernelOut
  refine congr (congr (congr (congrArg (lossOf _ _) ?_) ?_) ?_) ?_
  · exact congrArg _ ((Pipeline.withArrays_arr spec0 launch0.win.arr_inj c _ _ 2).trans (final2 m c))
  · exact congrArg _ ((Pipeline.withArrays_arr spec0 launch0.win.arr_inj c _ _ 3).trans (final3 m c))
  · exact congrArg _ ((Pipeline.withArrays_arr spec0 launch0.win.arr_inj c _ _ 4).trans (final4 m c))
  · exact congrArg _ ((Pipeline.withArrays_arr spec0 launch0.win.arr_inj c _ _ 5).trans (final5 m c))

/-- The result buffer is unscoped and is no window's array. -/
theorem result_bypasses : main_v17 ∈ Pipeline.restRefs sig (cfgs 0).spec :=
  Pipeline.mem_restRefs_of main_v17 rfl (fun w => by fin_cases w <;> decide)

/-- Every weakly fair execution of the kernel program terminates with its result at `kernelOut` of the arguments and the
    arguments unchanged. -/
theorem run : θ_run defs (onTc (τ := τ) (main (F := Ideal))) ⟨m, fun _ => 0, ρ⟩ fun r => ∀ c : Dev nD,
      r.2.mem ((c.tc : Thread nD τ).loc main_v17) = kernelOut (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v17 result_bypasses).trans (out_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tail

end
-- ==== Proof.RefRun.lean ====
import proofs.«108165_j71442486001672_2_alg».proof.Proof.Gen.ReferenceIdeal
import Idealize.ShloMosaic.Lib.StableHlo.Run
import proofs.«108165_j71442486001672_2_alg».proof.Proof.Extrema

/-!
# The reference program's run

The reference is a straight line of 43 host operations (the two clamps inlined at their calls): clamp and round
each argument, take the largest channel of every pixel, then the smallest and the largest of those values down each
column, and the loss of the four `[32, 512]` planes. Every weakly fair execution terminates with the result buffer at
that composed term of the arguments and the arguments unchanged. The reductions are kept folded throughout: the
equation between the program's `do` sequence and the operation list, and the fold of the list at the result buffer,
never look inside a reduction over the image batch.
-/

noncomputable section

namespace Cert.ReferenceIdeal.HostRun

open Cert.ReferenceIdeal Cert.ReferenceIdeal.Gen Idealize.ShloMosaic Idealize.ShloMosaic.TcCoe Idealize.SL.Sem Idealize.ShloMosaic.StableHlo
open Cert.Extrema (clipFloor lossOf)

variable {F : FTy → Type} [FloatOps F]

/-- @main's 43 operations, in order (a clamp's six operations stand in its call's place). -/
abbrev ops : List (HloOp τ sig (Elt F)) :=
  [ nullary main_cst (constant S_ .f32 0x00000000#32),
    nullary main_cst_0 (constant S_ .f32 0x437F0000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S32x3x512x512, .f32⟩) main_call0_v1) (broadcastInDim S32x3x512x512 ![] bcast_S_S32x3x512x512),
    TRef.binary (TRef.of (T := ⟨S32x3x512x512, .f32⟩) main_call0_v1) (TRef.of (T := ⟨S32x3x512x512, .f32⟩) main_arg0) (TRef.of (T := ⟨S32x3x512x512, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S32x3x512x512, .f32⟩) main_call0_v4) (broadcastInDim S32x3x512x512 ![] bcast_S_S32x3x512x512),
    TRef.binary (TRef.of (T := ⟨S32x3x512x512, .f32⟩) main_call0_v4) (TRef.of (T := ⟨S32x3x512x512, .f32⟩) main_call0_v2) (TRef.of (T := ⟨S32x3x512x512, .f32⟩) main_v0) minimumf,
    unary main_v0 main_v1 (Host.floor : (⟨S32x3x512x512, .f32⟩ : BufTy).Contents (Elt F) → (⟨S32x3x512x512, .f32⟩ : BufTy).Contents (Elt F)),
    nullary main_cst_1 (constant S_ .f32 0xFF800000#32),
    binary main_v1 main_cst_1 main_v2 ((fun x v => Host.reduce FloatOps.maximumf x v reducesTo_S32x3x512x512_S32x512x512_d1 h_S_) : (⟨S32x3x512x512, .f32⟩ : BufTy).Contents (Elt F) → (⟨S_, .f32⟩ : BufTy).Contents (Elt F) → (⟨S32x512x512, .f32⟩ : BufTy).Contents (Elt F)),
    nullary main_cst_2 (constant S_ .f32 0x00000000#32),
    nullary main_cst_3 (constant S_ .f32 0x437F0000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S32x3x512x512, .f32⟩) main_call1_v1) (broadcastInDim S32x3x512x512 ![] bcast_S_S32x3x512x512),
    TRef.binary (TRef.of (T := ⟨S32x3x512x512, .f32⟩) main_call1_v1) (TRef.of (T := ⟨S32x3x512x512, .f32⟩) main_arg1) (TRef.of (T := ⟨S32x3x512x512, .f32⟩) main_call1_v2) maximumf,
    TRef.unary (TRef.of (T := ⟨S_, .f32⟩) main_cst_3) (TRef.of (T := ⟨S_, .f32⟩) main_call1_v3) id,
    TRef.unary (TRef.of (T := ⟨S_, .f32⟩) main_call1_v3) (TRef.of (T := ⟨S32x3x512x512, .f32⟩) main_call1_v4) (broadcastInDim S32x3x512x512 ![] bcast_S_S32x3x512x512),
    TRef.binary (TRef.of (T := ⟨S32x3x512x512, .f32⟩) main_call1_v4) (TRef.of (T := ⟨S32x3x512x512, .f32⟩) main_call1_v2) (TRef.of (T := ⟨S32x3x512x512, .f32⟩) main_v3) minimumf,
    unary main_v3 main_v4 (Host.floor : (⟨S32x3x512x512, .f32⟩ : BufTy).Contents (Elt F) → (⟨S32x3x512x512, .f32⟩ : BufTy).Contents (Elt F)),
    nullary main_cst_4 (constant S_ .f32 0xFF800000#32),
    binary main_v4 main_cst_4 main_v5 ((fun x v => Host.reduce FloatOps.maximumf x v reducesTo_S32x3x512x512_S32x512x512_d1 h_S_) : (⟨S32x3x512x512, .f32⟩ : BufTy).Contents (Elt F) → (⟨S_, .f32⟩ : BufTy).Contents (Elt F) → (⟨S32x512x512, .f32⟩ : BufTy).Contents (Elt F)),
    nullary main_cst_5 (constant S_ .f32 0x7F800000#32),
    binary main_v2 main_cst_5 main_v6 ((fun x v => Host.reduce FloatOps.minimumf x v reducesTo_S32x512x512_S32x512_d1 h_S_) : (⟨S32x512x512, .f32⟩ : BufTy).Contents (Elt F) → (⟨S_, .f32⟩ : BufTy).Contents (Elt F) → (⟨S32x512, .f32⟩ : BufTy).Contents (Elt F)),
    nullary main_cst_6 (constant S_ .f32 0x7F800000#32),
    binary main_v5 main_cst_6 main_v7 ((fun x v => Host.reduce FloatOps.minimumf x v reducesTo_S32x512x512_S32x512_d1 h_S_) : (⟨S32x512x512, .f32⟩ : BufTy).Contents (Elt F) → (⟨S_, .f32⟩ : BufTy).Contents (Elt F) → (⟨S32x512, .f32⟩ : BufTy).Contents (Elt F)),
    binary main_v6 main_v7 main_v8 (subf : (⟨S32x512, .f32⟩ : BufTy).Contents (Elt F) → (⟨S32x512, .f32⟩ : BufTy).Contents (Elt F) → (⟨S32x512, .f32⟩ : BufTy).Contents (Elt F)),
    binary main_v8 main_v8 main_v9 (mulf : (⟨S32x512, .f32⟩ : BufTy).Contents (Elt F) → (⟨S32x512, .f32⟩ : BufTy).Contents (Elt F) → (⟨S32x512, .f32⟩ : BufTy).Contents (Elt F)),
    nullary main_cst_7 (constant S_ .f32 0x00000000#32),
    binary main_v9 main_cst_7 main_v10 ((fun x v => Host.reduceAdd x v reducesTo_S32x512_S_d0_1 h_S_) : (⟨S32x512, .f32⟩ : BufTy).Contents (Elt F) → (⟨S_, .f32⟩ : BufTy).Contents (Elt F) → (⟨S_, .f32⟩ : BufTy).Contents (Elt F)),
    nullary main_cst_8 (constant S_ .f32 0x46800000#32),
    binary main_v10 main_cst_8 main_v11 (Host.divf : (⟨S_, .f32⟩ : BufTy).Contents (Elt F) → (⟨S_, .f32⟩ : BufTy).Contents (Elt F) → (⟨S_, .f32⟩ : BufTy).Contents (Elt F)),
    nullary main_cst_9 (constant S_ .f32 0xFF800000#32),
    binary main_v2 main_cst_9 main_v12 ((fun x v => Host.reduce FloatOps.maximumf x v reducesTo_S32x512x512_S32x512_d1 h_S_) : (⟨S32x512x512, .f32⟩ : BufTy).Contents (Elt F) → (⟨S_, .f32⟩ : BufTy).Contents (Elt F) → (⟨S32x512, .f32⟩ : BufTy).Contents (Elt F)),
    nullary main_cst_10 (constant S_ .f32 0xFF800000#32),
    binary main_v5 main_cst_10 main_v13 ((fun x v => Host.reduce FloatOps.maximumf x v reducesTo_S32x512x512_S32x512_d1 h_S_) : (⟨S32x512x512, .f32⟩ : BufTy).Contents (Elt F) → (⟨S_, .f32⟩ : BufTy).Contents (Elt F) → (⟨S32x512, .f32⟩ : BufTy).Contents (Elt F)),
    binary main_v12 main_v13 main_v14 (subf : (⟨S32x512, .f32⟩ : BufTy).Contents (Elt F) → (⟨S32x512, .f32⟩ : BufTy).Contents (Elt F) → (⟨S32x512, .f32⟩ : BufTy).Contents (Elt F)),
    binary main_v14 main_v14 main_v15 (mulf : (⟨S32x512, .f32⟩ : BufTy).Contents (Elt F) → (⟨S32x512, .f32⟩ : BufTy).Contents (Elt F) → (⟨S32x512, .f32⟩ : BufTy).Contents (Elt F)),
    nullary main_cst_11 (constant S_ .f32 0x00000000#32),
    binary main_v15 main_cst_11 main_v16 ((fun x v => Host.reduceAdd x v reducesTo_S32x512_S_d0_1 h_S_) : (⟨S32x512, .f32⟩ : BufTy).Contents (Elt F) → (⟨S_, .f32⟩ : BufTy).Contents (Elt F) → (⟨S_, .f32⟩ : BufTy).Contents (Elt F)),
    nullary main_cst_12 (constant S_ .f32 0x46800000#32),
    binary main_v16 main_cst_12 main_v17 (Host.divf : (⟨S_, .f32⟩ : BufTy).Contents (Elt F) → (⟨S_, .f32⟩ : BufTy).Contents (Elt F) → (⟨S_, .f32⟩ : BufTy).Contents (Elt F)),
    binary main_v11 main_v17 main_v18 (addf : (⟨S_, .f32⟩ : BufTy).Contents (Elt F) → (⟨S_, .f32⟩ : BufTy).Contents (Elt F) → (⟨S_, .f32⟩ : BufTy).Contents (Elt F)) ]

attribute [local irreducible] Host.reduce Host.reduceAdd Host.floor Host.divf in
set_option maxRecDepth 8192 in
/-- @main is that straight line: the clamp's definition unfolded at its two calls, both sides are one chain of steps
    once sequencing is re-associated. -/
theorem main_eq (c : Dev nD) : main (F := F) c = seq ops := by
  simp only [main, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., unary_bufs_sub .., nullary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub ..⟩

/-- The value channel of the clamped and rounded image batch: the largest channel of every pixel. -/
def refValue (X : FVec Ideal S32x3x512x512 .f32) : FVec Ideal S32x512x512 .f32 :=
  Host.reduce FloatOps.maximumf (clipFloor bcast_S_S32x3x512x512 X) (constant (F := Ideal) S_ .f32 0xFF800000#32)
    reducesTo_S32x3x512x512_S32x512x512_d1 h_S_

/-- The smallest value down each column. -/
def refDark (X : FVec Ideal S32x3x512x512 .f32) : FVec Ideal S32x512 .f32 :=
  Host.reduce FloatOps.minimumf (refValue X) (constant (F := Ideal) S_ .f32 0x7F800000#32) reducesTo_S32x512x512_S32x512_d1 h_S_

/-- The largest value down each column. -/
def refBright (X : FVec Ideal S32x3x512x512 .f32) : FVec Ideal S32x512 .f32 :=
  Host.reduce FloatOps.maximumf (refValue X) (constant (F := Ideal) S_ .f32 0xFF800000#32) reducesTo_S32x512x512_S32x512_d1 h_S_

/-- The reference's result as a function of its two arguments. -/
def refOut (X0 X1 : FVec Ideal S32x3x512x512 .f32) : FVec Ideal S_ .f32 :=
  lossOf reducesTo_S32x512_S_d0_1 h_S_ (refDark X0) (refBright X0) (refDark X1) (refBright X1)

attribute [local irreducible] Host.reduce Host.reduceAdd Host.floor Host.divf in
set_option maxRecDepth 8192 in
set_option maxHeartbeats 1000000 in
/-- The fold of the operations at the result buffer is `refOut` of the arguments' contents. -/
theorem out_eq (V : Valuation τ sig (Elt Ideal)) :
    after (ops (F := Ideal)) V (main_v18 : DevRef τ sig)
      = refOut (V (main_arg0 : DevRef τ sig)) (V (main_arg1 : DevRef τ sig)) := by
  after_results_simp
  rfl

set_option maxRecDepth 8192 in
theorem arg0_eq (V : Valuation τ sig (Elt F)) :
    after (ops (F := F)) V (main_arg0 : DevRef τ sig) = V (main_arg0 : DevRef τ sig) := by
  after_results_simp

set_option maxRecDepth 8192 in
theorem arg1_eq (V : Valuation τ sig (Elt F)) :
    after (ops (F := F)) V (main_arg1 : DevRef τ sig) = V (main_arg1 : DevRef τ sig) := by
  after_results_simp

/-- Every weakly fair execution of the reference terminates with each buffer at the operations' fold over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference runs and leaves its arguments unchanged (at any float instance). -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_arg0).trans (arg0_eq _), (h c main_arg1).trans (arg1_eq _)⟩) (run_fold m ρ)

/-- On the extended reals the reference ends with its result at `refOut` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
        = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v18).trans (out_eq _), (h c main_arg0).trans (arg0_eq _),
    (h c main_arg1).trans (arg1_eq _)⟩) (run_fold m ρ)

end Cert.ReferenceIdeal.HostRun

end
-- ==== Proof.RefPlanes.lean ====
import proofs.«108165_j71442486001672_2_alg».proof.Proof.RefRun
import proofs.«108165_j71442486001672_2_alg».proof.Proof.LibExtremeReduce
import Idealize.ShloMosaic.Lib.ValueIdx

/-!
# The reference's four planes, read at a column

On the extended reals the reference's darkest plane at `(b, w)` is the infimum over the 512 rows `h` of the supremum
over the three channels `c` of the quantized pixel `(b, c, h, w)`, and its brightest plane the supremum over the rows
of the same. Quantizing the raw extremes (what the kernel does) gives the same planes: quantization is monotone, so it
commutes with the largest of three channels, with the smallest over the rows and with the largest over the rows.
-/

noncomputable section

namespace Cert.ReferenceIdeal.Planes

open Cert.ReferenceIdeal Cert.ReferenceIdeal.Gen Cert.ReferenceIdeal.HostRun Idealize.ShloMosaic
open Idealize.ShloMosaic.ValueIdx Idealize.ShloMosaic.ExtremeReduce Cert.Extrema

theorem redImg : S32x3x512x512.Reduces [1] S32x512x512 := by decide
theorem redVol : S32x512x512.Reduces [1] S32x512 := by decide

/-- Pixel `(b, h, w)` with channel `c` inserted is `(b, c, h, w)`. -/
theorem liftImg (b : Fin 32) (h w : Fin 512) (c : Fin 3) : redImg.lift (ix3 b h w) c = ix4 b c h w := by
  funext a
  apply Fin.ext
  match a with
  | ⟨0, _⟩ => rfl
  | ⟨1, _⟩ => rfl
  | ⟨2, _⟩ => rfl
  | ⟨3, _⟩ => rfl

/-- Column `(b, w)` with row `h` inserted is `(b, h, w)`. -/
theorem liftVol (b : Fin 32) (w h : Fin 512) : redVol.lift (ix2 b w) h = ix3 b h w := by
  funext a
  apply Fin.ext
  match a with
  | ⟨0, _⟩ => rfl
  | ⟨1, _⟩ => rfl
  | ⟨2, _⟩ => rfl

/-- The reference's value channel at a pixel: the largest of its three quantized channels. -/
theorem refValue_apply (X : FVec Ideal S32x3x512x512 .f32) (b : Fin 32) (h w : Fin 512) :
    refValue X (ix3 b h w) = ⨆ c : Fin 3, quant lo hi (X (ix4 b c h w)) := by
  unfold refValue
  refine (hostReduce_max_single (clipFloor bcast_S_S32x3x512x512 X) reducesTo_S32x3x512x512_S32x512x512_d1 redImg h_S_
    (ix3 b h w)).trans ?_
  exact iSup_congr fun (c : Fin 3) =>
    (congrArg (clipFloor bcast_S_S32x3x512x512 X) (liftImg b h w c)).trans (clipFloor_apply _ X _)

/-- The reference's darkest plane at a column. -/
theorem refDark_apply (X : FVec Ideal S32x3x512x512 .f32) (b : Fin 32) (w : Fin 512) :
    refDark X (ix2 b w) = ⨅ h : Fin 512, ⨆ c : Fin 3, quant lo hi (X (ix4 b c h w)) := by
  unfold refDark
  refine (hostReduce_min_single (refValue X) reducesTo_S32x512x512_S32x512_d1 redVol h_S_ (ix2 b w)).trans ?_
  exact iInf_congr fun (h : Fin 512) => (congrArg (refValue X) (liftVol b w h)).trans (refValue_apply X b h w)

/-- The reference's brightest plane at a column. -/
theorem refBright_apply (X : FVec Ideal S32x3x512x512 .f32) (b : Fin 32) (w : Fin 512) :
    refBright X (ix2 b w) = ⨆ h : Fin 512, ⨆ c : Fin 3, quant lo hi (X (ix4 b c h w)) := by
  unfold refBright
  refine (hostReduce_max_single (refValue X) reducesTo_S32x512x512_S32x512_d1 redVol h_S_ (ix2 b w)).trans ?_
  exact iSup_congr fun (h : Fin 512) => (congrArg (refValue X) (liftVol b w h)).trans (refValue_apply X b h w)

/-- Quantizing the darkest raw values gives the reference's darkest plane. -/
theorem clipFloor_darkest (hb : Scal.BroadcastsInDim Plane (![] : Fin 0 → Fin Plane.rank)) (X : FVec Ideal S32x3x512x512 .f32) :
    clipFloor hb (darkest X) = refDark X := by
  funext j
  obtain ⟨b, w, rfl⟩ : ∃ (b : Fin 32) (w : Fin 512), j = ix2 b w := ⟨j 0, j 1, eq_ix2 j⟩
  rw [clipFloor_apply, quant_darkest, refDark_apply]

/-- Quantizing the brightest raw values gives the reference's brightest plane. -/
theorem clipFloor_brightest (hb : Scal.BroadcastsInDim Plane (![] : Fin 0 → Fin Plane.rank)) (X : FVec Ideal S32x3x512x512 .f32) :
    clipFloor hb (brightest X) = refBright X := by
  funext j
  obtain ⟨b, w, rfl⟩ : ∃ (b : Fin 32) (w : Fin 512), j = ix2 b w := ⟨j 0, j 1, eq_ix2 j⟩
  rw [clipFloor_apply, quant_brightest, refBright_apply]

end Cert.ReferenceIdeal.Planes

end
-- ==== Proof.lean ====
/-
  A perceptual loss on the brightness of two image batches, kernel against reference, over the extended reals.

  For `prediction`, `target : f32[32, 3, 512, 512]` the VALUE of a pixel is the largest of its three channels. Both
  programs compute, for each image `b` and column `w`, the darkest and the brightest value down the column (over the
  512 rows), quantize to the integers of `[0, 255]` by `x ↦ ⌊min 255 (max 0 x)⌋`, and return
  `mean (dark_p - dark_t)² + mean (bright_p - bright_t)²` over the `32 · 512` columns.

  They differ in WHERE they quantize. The reference quantizes every channel of every pixel first and then takes the
  extremes. The kernel takes the extremes of the RAW values — a grid over 4 image blocks × 4 row blocks, each
  point folding its 128 rows into four running `[8, 512]` blocks reset to `±∞` at the first row block of an image
  block and written back after the last — and quantizes only the four `[32, 512]` results on the host. The two agree
  because quantization is MONOTONE on the extended reals (a clamp, then a rounding down that fixes the infinities), and
  a monotone map of a linear order commutes with the largest of three values, with the smallest of 512 and with the
  largest of 512. No finiteness of the inputs is needed, so the precondition is never opened.

  The modules: `LibOrderFold` (minima and maxima over a finite index type as infima and suprema; monotone maps;
  block-by-block partial extremes), `LibExtremeReduce` (a lane or host min/max reduction from the infinity word over
  one axis, read on the extended reals), `Extrema` (the value channel, its extremes, quantization, the loss),
  `KernelPieces` → `KernelPointValue` → `KernelSweep` → `KernelArrays` → `KernelTail` (what one grid point leaves,
  at an element, after every point by induction, the four arrays after the run, the host lines after the region and
  the kernel program's run), `RefRun` → `RefPlanes` (the reference's run and its four planes read at a column).
  The idealization pass rewrote nothing, so `preserves` is trivial; the word-level kernel needs only its frame.
-/
import proofs.«108165_j71442486001672_2_alg».proof.Defs
import proofs.«108165_j71442486001672_2_alg».proof.Proof.Gen.Kernel
import proofs.«108165_j71442486001672_2_alg».proof.Proof.Gen.Kernel.Frame
import proofs.«108165_j71442486001672_2_alg».proof.Proof.Gen.KernelIdeal
import proofs.«108165_j71442486001672_2_alg».proof.Proof.Gen.KernelIdeal.Frame
import proofs.«108165_j71442486001672_2_alg».proof.Proof.Gen.ReferenceIdeal
import proofs.«108165_j71442486001672_2_alg».proof.Proof.Gen.Pre_finite_inputs
import proofs.«108165_j71442486001672_2_alg».proof.Proof.KernelTail
import proofs.«108165_j71442486001672_2_alg».proof.Proof.RefPlanes
import Idealize.ShloMosaic.Adequacy
import Idealize.ShloMosaic.Init

noncomputable section

namespace Cert.Proof

open Idealize.ShloMosaic Idealize.SL.Sem

/-- The two programs' results are one function of the two arguments: quantizing the raw extremes gives the extremes of
    the quantized values, plane by plane, and the loss is the same function of the four planes. -/
theorem out_agree (X0 X1 : FVec Ideal Cert.Extrema.Img .f32) :
    Cert.KernelIdeal.Tail.kernelOut X0 X1 = Cert.ReferenceIdeal.HostRun.refOut X0 X1 := by
  unfold Cert.KernelIdeal.Tail.kernelOut Cert.ReferenceIdeal.HostRun.refOut
  rw [Cert.ReferenceIdeal.Planes.clipFloor_darkest, Cert.ReferenceIdeal.Planes.clipFloor_brightest,
    Cert.ReferenceIdeal.Planes.clipFloor_darkest, Cert.ReferenceIdeal.Planes.clipFloor_brightest]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.HostRun.run_frame (F := Ideal) m ρ

/-- The idealization pass rewrote no operation. -/
theorem preserves : Cert.preserves_Kernel_KernelIdeal := trivial

/-- On the extended reals, from memories that agree on the two arguments, the kernel program ends with its result at
    `kernelOut` of them and the reference with its result at `refOut` of them: one function (`out_agree`). -/
theorem algebraic : Cert.algebraic_KernelIdeal_ReferenceIdeal := by
  intro m ρ m' ρ' _ hagree
  refine ⟨fun c => Cert.KernelIdeal.Tail.kernelOut
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Tail.run m ρ, ?_⟩
  refine (θ_run Cert.ReferenceIdeal.defs _ _).mono (fun _ h c => ⟨(h c).1.trans ?_, (h c).2⟩)
    (Cert.ReferenceIdeal.HostRun.run m' ρ')
  rw [(hagree c).1, (hagree c).2]
  exact (out_agree _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
